-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x40 .f32) (main_arg9 : FVec F S40 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x40 .f32) (main_arg9 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S20000x128 .f32) (main_arg1 : IVec S2x640000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x40 .f32) (main_arg9 : FVec F S40 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S20000x128 : Shape := ⟨2, ![20000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x256 : Shape := ⟨2, ![1, 256]⟩
abbrev S20000x256 : Shape := ⟨2, ![20000, 256]⟩
abbrev S2000x128 : Shape := ⟨2, ![2000, 128]⟩
abbrev S2000x256 : Shape := ⟨2, ![2000, 256]⟩
abbrev S640000x256 : Shape := ⟨2, ![640000, 256]⟩
abbrev S1x40 : Shape := ⟨2, ![1, 40]⟩
abbrev S20000x40 : Shape := ⟨2, ![20000, 40]⟩
abbrev S2000x40 : Shape := ⟨2, ![2000, 40]⟩

abbrev nBuf : Space → Nat
  | .hbm => 74
  | .vmem => 32
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S20000x128, .f32⟩
  | .hbm, ⟨25, _⟩ => ⟨S640000x1, .i32⟩
  | .hbm, ⟨26, _⟩ => ⟨S20000x128, .f32⟩
  | .hbm, ⟨27, _⟩ => ⟨S1x256, .f32⟩
  | .hbm, ⟨28, _⟩ => ⟨S20000x256, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x256, .f32⟩
  | .hbm, ⟨38, _⟩ => ⟨S_, .f32⟩
  | .hbm, ⟨39, _⟩ => ⟨S20000x256, .f32⟩
  | .hbm, ⟨40, _⟩ => ⟨S640000x1, .i32⟩
  | .hbm, ⟨41, _⟩ => ⟨S20000x256, .f32⟩
  | .hbm, ⟨42, _⟩ => ⟨S1x256, .f32⟩
  | .hbm, ⟨43, _⟩ => ⟨S20000x256, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x256, .f32⟩
  | .hbm, ⟨53, _⟩ => ⟨S_, .f32⟩
  | .hbm, ⟨54, _⟩ => ⟨S20000x256, .f32⟩
  | .hbm, ⟨55, _⟩ => ⟨S640000x1, .i32⟩
  | .hbm, ⟨56, _⟩ => ⟨S20000x256, .f32⟩
  | .hbm, ⟨57, _⟩ => ⟨S1x256, .f32⟩
  | .hbm, ⟨58, _⟩ => ⟨S20000x256, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x256, .f32⟩
  | .hbm, ⟨68, _⟩ => ⟨S_, .f32⟩
  | .hbm, ⟨69, _⟩ => ⟨S20000x256, .f32⟩
  | .hbm, ⟨70, _⟩ => ⟨S640000x1, .i32⟩
  | .hbm, ⟨71, _⟩ => ⟨S20000x256, .f32⟩
  | .hbm, ⟨72, _⟩ => ⟨S1x40, .f32⟩
  | .hbm, ⟨73, _⟩ => ⟨S20000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x40, .f32⟩
  | .local _ .vmem, ⟨29, _⟩ => ⟨S1x40, .f32⟩
  | .local _ .vmem, ⟨30, _⟩ => ⟨S2000x40, .f32⟩
  | .local _ .vmem, ⟨31, _⟩ => ⟨S2000x40, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S20000x256 : S_.BroadcastsInDim S20000x256 (![] : Fin 0 → Fin S20000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S40_S1x40 : S40.ShapeCasts S1x40
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x256_S2000x256_1_0_0_1_n_n_wf : DotDims.WF S2000x128 S128x256 S2000x256 [1] [0] [0] [1] [] []
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S20000x256.size a
  hwx0_4 : ∀ i : grid0.Coords, EltTy.bits .f32 = 32 ∨ (Rect.block (s := S20000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S20000x256.size a
  hwx2_4 : ∀ i : grid2.Coords, EltTy.bits .f32 = 32 ∨ (Rect.block (s := S20000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x40.size a ≤ S256x40.size a
  hwx3_2 : ∀ i : grid3.Coords, EltTy.bits .f32 = 32 ∨ (Rect.block (s := S256x40) S256x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S20000x40.size a
  hwx3_4 : ∀ i : grid3.Coords, EltTy.bits .f32 = 32 ∨ (Rect.block (s := S20000x40) S2000x40.size (cc3_transform_4 i) (hinb3_4 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v39) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S256x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S2000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S20000x256 : Shape := ⟨2, ![20000, 256]⟩
abbrev S1x256 : Shape := ⟨2, ![1, 256]⟩
abbrev S640000x256 : Shape := ⟨2, ![640000, 256]⟩
abbrev S20000x40 : Shape := ⟨2, ![20000, 40]⟩
abbrev S1x40 : Shape := ⟨2, ![1, 40]⟩

abbrev nBuf : Space → Nat
  | .hbm => 119
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S20000x128, .f32⟩
  | .hbm, ⟨25, _⟩ => ⟨S640000x1, .i32⟩
  | .hbm, ⟨26, _⟩ => ⟨S20000x128, .f32⟩
  | .hbm, ⟨27, _⟩ => ⟨S_, .f32⟩
  | .hbm, ⟨28, _⟩ => ⟨S20000x128, .f32⟩
  | .hbm, ⟨29, _⟩ => ⟨S20000x128, .f32⟩
  | .hbm, ⟨30, _⟩ => ⟨S20000x128, .f32⟩
  | .hbm, ⟨31, _⟩ => ⟨S20000x256, .f32⟩
  | .hbm, ⟨32, _⟩ => ⟨S1x256, .f32⟩
  | .hbm, ⟨33, _⟩ => ⟨S20000x256, .f32⟩
  | .hbm, ⟨34, _⟩ => ⟨S20000x256, .f32⟩
  | .hbm, ⟨35, _⟩ => ⟨S_, .f32⟩
  | .hbm, ⟨36, _⟩ => ⟨S20000x256, .f32⟩
  | .hbm, ⟨37, _⟩ => ⟨S20000x256, .f32⟩
  | .hbm, ⟨38, _⟩ => ⟨S1x640000, .i32⟩
  | .hbm, ⟨39, _⟩ => ⟨S640000, .i32⟩
  | .hbm, ⟨40, _⟩ => ⟨S1x640000, .i32⟩
  | .hbm, ⟨41, _⟩ => ⟨S640000, .i32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S20000x256, .f32⟩
  | .hbm, ⟨53, _⟩ => ⟨S640000x1, .i32⟩
  | .hbm, ⟨54, _⟩ => ⟨S20000x256, .f32⟩
  | .hbm, ⟨55, _⟩ => ⟨S_, .f32⟩
  | .hbm, ⟨56, _⟩ => ⟨S20000x256, .f32⟩
  | .hbm, ⟨57, _⟩ => ⟨S20000x256, .f32⟩
  | .hbm, ⟨58, _⟩ => ⟨S20000x256, .f32⟩
  | .hbm, ⟨59, _⟩ => ⟨S20000x256, .f32⟩
  | .hbm, ⟨60, _⟩ => ⟨S1x256, .f32⟩
  | .hbm, ⟨61, _⟩ => ⟨S20000x256, .f32⟩
  | .hbm, ⟨62, _⟩ => ⟨S20000x256, .f32⟩
  | .hbm, ⟨63, _⟩ => ⟨S_, .f32⟩
  | .hbm, ⟨64, _⟩ => ⟨S20000x256, .f32⟩
  | .hbm, ⟨65, _⟩ => ⟨S20000x256, .f32⟩
  | .hbm, ⟨66, _⟩ => ⟨S1x640000, .i32⟩
  | .hbm, ⟨67, _⟩ => ⟨S640000, .i32⟩
  | .hbm, ⟨68, _⟩ => ⟨S1x640000, .i32⟩
  | .hbm, ⟨69, _⟩ => ⟨S640000, .i32⟩
  | .hbm, ⟨70, _⟩ => ⟨S_, .i32⟩
  | .hbm, ⟨71, _⟩ => ⟨S640000, .i32⟩
  | .hbm, ⟨72, _⟩ => ⟨S640000, .i1⟩
  | .hbm, ⟨73, _⟩ => ⟨S_, .i32⟩
  | .hbm, ⟨74, _⟩ => ⟨S640000, .i32⟩
  | .hbm, ⟨75, _⟩ => ⟨S640000, .i32⟩
  | .hbm, ⟨76, _⟩ => ⟨S640000, .i32⟩
  | .hbm, ⟨77, _⟩ => ⟨S640000x1, .i32⟩
  | .hbm, ⟨78, _⟩ => ⟨S640000x256, .f32⟩
  | .hbm, ⟨79, _⟩ => ⟨S_, .f32⟩
  | .hbm, ⟨80, _⟩ => ⟨S20000x256, .f32⟩
  | .hbm, ⟨81, _⟩ => ⟨S640000x1, .i32⟩
  | .hbm, ⟨82, _⟩ => ⟨S20000x256, .f32⟩
  | .hbm, ⟨83, _⟩ => ⟨S_, .f32⟩
  | .hbm, ⟨84, _⟩ => ⟨S20000x256, .f32⟩
  | .hbm, ⟨85, _⟩ => ⟨S20000x256, .f32⟩
  | .hbm, ⟨86, _⟩ => ⟨S20000x256, .f32⟩
  | .hbm, ⟨87, _⟩ => ⟨S20000x256, .f32⟩
  | .hbm, ⟨88, _⟩ => ⟨S1x256, .f32⟩
  | .hbm, ⟨89, _⟩ => ⟨S20000x256, .f32⟩
  | .hbm, ⟨90, _⟩ => ⟨S20000x256, .f32⟩
  | .hbm, ⟨91, _⟩ => ⟨S_, .f32⟩
  | .hbm, ⟨92, _⟩ => ⟨S20000x256, .f32⟩
  | .hbm, ⟨93, _⟩ => ⟨S20000x256, .f32⟩
  | .hbm, ⟨94, _⟩ => ⟨S1x640000, .i32⟩
  | .hbm, ⟨95, _⟩ => ⟨S640000, .i32⟩
  | .hbm, ⟨96, _⟩ => ⟨S1x640000, .i32⟩
  | .hbm, ⟨97, _⟩ => ⟨S640000, .i32⟩
  | .hbm, ⟨98, _⟩ => ⟨S_, .i32⟩
  | .hbm, ⟨99, _⟩ => ⟨S640000, .i32⟩
  | .hbm, ⟨100, _⟩ => ⟨S640000, .i1⟩
  | .hbm, ⟨101, _⟩ => ⟨S_, .i32⟩
  | .hbm, ⟨102, _⟩ => ⟨S640000, .i32⟩
  | .hbm, ⟨103, _⟩ => ⟨S640000, .i32⟩
  | .hbm, ⟨104, _⟩ => ⟨S640000, .i32⟩
  | .hbm, ⟨105, _⟩ => ⟨S640000x1, .i32⟩
  | .hbm, ⟨106, _⟩ => ⟨S640000x256, .f32⟩
  | .hbm, ⟨107, _⟩ => ⟨S_, .f32⟩
  | .hbm, ⟨108, _⟩ => ⟨S20000x256, .f32⟩
  | .hbm, ⟨109, _⟩ => ⟨S640000x1, .i32⟩
  | .hbm, ⟨110, _⟩ => ⟨S20000x256, .f32⟩
  | .hbm, ⟨111, _⟩ => ⟨S_, .f32⟩
  | .hbm, ⟨112, _⟩ => ⟨S20000x256, .f32⟩
  | .hbm, ⟨113, _⟩ => ⟨S20000x256, .f32⟩
  | .hbm, ⟨114, _⟩ => ⟨S20000x256, .f32⟩
  | .hbm, ⟨115, _⟩ => ⟨S20000x40, .f32⟩
  | .hbm, ⟨116, _⟩ => ⟨S1x40, .f32⟩
  | .hbm, ⟨117, _⟩ => ⟨S20000x40, .f32⟩
  | .hbm, ⟨118, _⟩ => ⟨S20000x40, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_10 : Ref sig .tc := ⟨.hbm, 98, rfl⟩
abbrev main_v70 : Ref sig .tc := ⟨.hbm, 99, rfl⟩
abbrev main_v71 : Ref sig .tc := ⟨.hbm, 100, rfl⟩
abbrev main_c_11 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S40_S1x40_1 : S40.BroadcastsInDim S1x40 (![1] : Fin 1 → Fin S1x40.rank)
  bcast_S1x40_S20000x40_0_1 : S1x40.BroadcastsInDim S20000x40 (![0, 1] : Fin 2 → Fin S20000x40.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x256_S20000x256_1_0_0_1_n_n_wf : DotDims.WF S20000x128 S128x256 S20000x256 [1] [0] [0] [1] [] []
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S20000x256_S256x256_S20000x256_1_0_0_1_n_n_wf : DotDims.WF S20000x256 S256x256 S20000x256 [1] [0] [0] [1] [] []
  dot_S20000x256_S256x40_S20000x40_1_0_0_1_n_n_wf : DotDims.WF S20000x256 S256x40 S20000x40 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x40_S20000x40_1_0_0_1_n_n : DotDims S20000x256 S256x40 S20000x40 where
  lhsContracting := [1]
  rhsContracting := [0]
  lhsNonContracting := [0]
  rhsNonContracting := [1]
  lhsBatch := []
  rhsBatch := []
  wf := dot_S20000x256_S256x40_S20000x40_1_0_0_1_n_n_wf

class Facts : Prop extends Facts₀ where

variable [Facts]
-- ==== Proof.KAgg.lean ====
/-
  The host chain both programs run before every layer, kept whole.

  From the edge list (a 2 × E array of node ids) the source row is sliced out, a negative id is wrapped by the node
  count, the current features' rows at the source ids are gathered, and they are summed into the rows named by the
  destination row (a scatter that adds into zeros). `aggOf128` and `aggOf256` are those neighbour sums of 128- and
  256-channel features given the two id rows. Nothing in the certificate opens them: they are only carried.
-/
import proofs.«164107_j38560216383777_1_alg».proof.Proof.Gen.KernelIdeal
import Idealize.ShloMosaic.PureOps.Ideal

noncomputable section

namespace Cert.KernelIdeal.KValue

open Cert.KernelIdeal Cert.KernelIdeal.Gen Idealize.ShloMosaic

/-- The source id of every edge: row 0 of the edge list, as a vector. -/
def srcOf (ei : Vec Ideal S2x640000 .i32) : Vec Ideal S640000 .i32 :=
  shapeCast S640000 (extractStridedSlice S1x640000 ![0, 0] ei slices_S2x640000_S1x640000_0_0) shapeCasts_S1x640000_S640000

/-- The destination id of every edge: row 1 of the edge list, as a vector. -/
def dstOf (ei : Vec Ideal S2x640000 .i32) : Vec Ideal S640000 .i32 :=
  shapeCast S640000 (extractStridedSlice S1x640000 ![1, 0] ei slices_S2x640000_S1x640000_1_0) shapeCasts_S1x640000_S640000

/-- Neighbour sums of 128-channel features `x`: the rows of `x` at the source ids `s` (a negative id wrapped by the
    node count), added into zeros at the destination ids `d`. -/
def aggOf128 (x : FVec Ideal S20000x128 .f32) (s d : Vec Ideal S640000 .i32) : FVec Ideal S20000x128 .f32 :=
  Host.scatterAdd (F := Ideal) scatter_S20000x128_S640000x1_S640000x128_1_0_0_1
    (broadcastInDim S20000x128 ![] bcast_S_S20000x128 (constant (F := Ideal) S_ .f32 0x00000000#32))
    (broadcastInDim S640000x1 ![0] bcast_S640000_S640000x1_0 d)
    (Host.gather gather_S20000x128_S640000x1_S640000x128_1_0_n_n_0_1_1128 x
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 20000#32))) s)))

/-- The same for 256-channel features. -/
def aggOf256 (h : FVec Ideal S20000x256 .f32) (s d : Vec Ideal S640000 .i32) : FVec Ideal S20000x256 .f32 :=
  Host.scatterAdd (F := Ideal) scatter_S20000x256_S640000x1_S640000x256_1_0_0_1
    (broadcastInDim S20000x256 ![] bcast_S_S20000x256 (constant (F := Ideal) S_ .f32 0x00000000#32))
    (broadcastInDim S640000x1 ![0] bcast_S640000_S640000x1_0 d)
    (Host.gather gather_S20000x256_S640000x1_S640000x256_1_0_n_n_0_1_1256 h
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 20000#32))) s)))

end Cert.KernelIdeal.KValue

end
-- ==== Proof.KKeep.lean ====
/-
  The idealized kernel between its launches: what the arguments and the edge ids hold at every segment boundary.

  The program's run is a fold of the launch memory through four stretches of host operations and four kernel
  launches; `W1 … W8` are the buffer contents at the boundaries. A stretch writes no argument and, after the first
  stretch, no id row; a launch writes only its own output array. So at every boundary each argument holds what it
  was launched with, and the two id rows hold the source and destination ids the first stretch sliced out of the
  edge list.
-/
import proofs.«164107_j38560216383777_1_alg».proof.Proof.KernelIdealFrame
import proofs.«164107_j38560216383777_1_alg».proof.Proof.KAgg
import Idealize.ShloMosaic.Lib.StableHlo.Run

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch, and across each launch and the stretch after it

A stretch of host operations writes no argument and, after the first stretch, no id row; a launch writes only its
own output array. So each of these buffers holds, at every boundary, what the first stretch left in it. -/

theorem src_at1 (c : Dev nD) : W1 m ρ c (Proc.devRef .tc main_v1) = srcOf (m ((c : Thread nD τ).loc main_arg1)) := by
  show StableHlo.after hostOps0 (W0 m ρ c) (Proc.devRef .tc main_v1) = _
  unfold hostOps0; after_results; rfl
theorem dst_at1 (c : Dev nD) : W1 m ρ c (Proc.devRef .tc main_v3) = dstOf (m ((c : Thread nD τ).loc main_arg1)) := by
  show StableHlo.after hostOps0 (W0 m ρ c) (Proc.devRef .tc main_v3) = _
  unfold hostOps0; after_results; rfl
theorem arg0_at1 (c : Dev nD) : W1 m ρ c (Proc.devRef .tc main_arg0) = m ((c : Thread nD τ).loc main_arg0) := by
  show StableHlo.after hostOps0 (W0 m ρ c) (Proc.devRef .tc main_arg0) = _
  unfold hostOps0; after_results; try rfl
theorem arg2_at1 (c : Dev nD) : W1 m ρ c (Proc.devRef .tc main_arg2) = m ((c : Thread nD τ).loc main_arg2) := by
  show StableHlo.after hostOps0 (W0 m ρ c) (Proc.devRef .tc main_arg2) = _
  unfold hostOps0; after_results; try rfl
theorem arg3_at1 (c : Dev nD) : W1 m ρ c (Proc.devRef .tc main_arg3) = m ((c : Thread nD τ).loc main_arg3) := by
  show StableHlo.after hostOps0 (W0 m ρ c) (Proc.devRef .tc main_arg3) = _
  unfold hostOps0; after_results; try rfl
theorem arg4_at1 (c : Dev nD) : W1 m ρ c (Proc.devRef .tc main_arg4) = m ((c : Thread nD τ).loc main_arg4) := by
  show StableHlo.after hostOps0 (W0 m ρ c) (Proc.devRef .tc main_arg4) = _
  unfold hostOps0; after_results; try rfl
theorem arg5_at1 (c : Dev nD) : W1 m ρ c (Proc.devRef .tc main_arg5) = m ((c : Thread nD τ).loc main_arg5) := by
  show StableHlo.after hostOps0 (W0 m ρ c) (Proc.devRef .tc main_arg5) = _
  unfold hostOps0; after_results; try rfl
theorem arg6_at1 (c : Dev nD) : W1 m ρ c (Proc.devRef .tc main_arg6) = m ((c : Thread nD τ).loc main_arg6) := by
  show StableHlo.after hostOps0 (W0 m ρ c) (Proc.devRef .tc main_arg6) = _
  unfold hostOps0; after_results; try rfl
theorem arg7_at1 (c : Dev nD) : W1 m ρ c (Proc.devRef .tc main_arg7) = m ((c : Thread nD τ).loc main_arg7) := by
  show StableHlo.after hostOps0 (W0 m ρ c) (Proc.devRef .tc main_arg7) = _
  unfold hostOps0; after_results; try rfl
theorem arg8_at1 (c : Dev nD) : W1 m ρ c (Proc.devRef .tc main_arg8) = m ((c : Thread nD τ).loc main_arg8) := by
  show StableHlo.after hostOps0 (W0 m ρ c) (Proc.devRef .tc main_arg8) = _
  unfold hostOps0; after_results; try rfl
theorem arg9_at1 (c : Dev nD) : W1 m ρ c (Proc.devRef .tc main_arg9) = m ((c : Thread nD τ).loc main_arg9) := by
  show StableHlo.after hostOps0 (W0 m ρ c) (Proc.devRef .tc main_arg9) = _
  unfold hostOps0; after_results; try rfl

/-- Across a launch and the stretch after it, a buffer neither writes keeps its contents: boundaries 1 → 3. -/
theorem keep13 (c : Dev nD) (b : Ref sig .tc) (hb : ∀ w, Pipeline.arrRef spec0 w ≠ b)
    (hs : StableHlo.after hostOps1 (W2 m ρ c) (Proc.devRef .tc b) = W2 m ρ c (Proc.devRef .tc b)) :
    W3 m ρ c (Proc.devRef .tc b) = W1 m ρ c (Proc.devRef .tc b) := hs.trans (W2_of_ne m ρ c b hb)
theorem keep35 (c : Dev nD) (b : Ref sig .tc) (hb : ∀ w, Pipeline.arrRef spec1 w ≠ b)
    (hs : StableHlo.after hostOps2 (W4 m ρ c) (Proc.devRef .tc b) = W4 m ρ c (Proc.devRef .tc b)) :
    W5 m ρ c (Proc.devRef .tc b) = W3 m ρ c (Proc.devRef .tc b) := hs.trans (W4_of_ne m ρ c b hb)
theorem keep57 (c : Dev nD) (b : Ref sig .tc) (hb : ∀ w, Pipeline.arrRef spec2 w ≠ b)
    (hs : StableHlo.after hostOps3 (W6 m ρ c) (Proc.devRef .tc b) = W6 m ρ c (Proc.devRef .tc b)) :
    W7 m ρ c (Proc.devRef .tc b) = W5 m ρ c (Proc.devRef .tc b) := hs.trans (W6_of_ne m ρ c b hb)

theorem v1_13 (c : Dev nD) : W3 m ρ c (Proc.devRef .tc main_v1) = W1 m ρ c (Proc.devRef .tc main_v1) :=
  keep13 m ρ c main_v1 (by decide) (by unfold hostOps1; after_results)
theorem v3_13 (c : Dev nD) : W3 m ρ c (Proc.devRef .tc main_v3) = W1 m ρ c (Proc.devRef .tc main_v3) :=
  keep13 m ρ c main_v3 (by decide) (by unfold hostOps1; after_results)
theorem arg4_13 (c : Dev nD) : W3 m ρ c (Proc.devRef .tc main_arg4) = W1 m ρ c (Proc.devRef .tc main_arg4) :=
  keep13 m ρ c main_arg4 (by decide) (by unfold hostOps1; after_results)
theorem arg5_13 (c : Dev nD) : W3 m ρ c (Proc.devRef .tc main_arg5) = W1 m ρ c (Proc.devRef .tc main_arg5) :=
  keep13 m ρ c main_arg5 (by decide) (by unfold hostOps1; after_results)
theorem arg6_13 (c : Dev nD) : W3 m ρ c (Proc.devRef .tc main_arg6) = W1 m ρ c (Proc.devRef .tc main_arg6) :=
  keep13 m ρ c main_arg6 (by decide) (by unfold hostOps1; after_results)
theorem arg7_13 (c : Dev nD) : W3 m ρ c (Proc.devRef .tc main_arg7) = W1 m ρ c (Proc.devRef .tc main_arg7) :=
  keep13 m ρ c main_arg7 (by decide) (by unfold hostOps1; after_results)
theorem arg8_13 (c : Dev nD) : W3 m ρ c (Proc.devRef .tc main_arg8) = W1 m ρ c (Proc.devRef .tc main_arg8) :=
  keep13 m ρ c main_arg8 (by decide) (by unfold hostOps1; after_results)
theorem arg9_13 (c : Dev nD) : W3 m ρ c (Proc.devRef .tc main_arg9) = W1 m ρ c (Proc.devRef .tc main_arg9) :=
  keep13 m ρ c main_arg9 (by decide) (by unfold hostOps1; after_results)
theorem v1_35 (c : Dev nD) : W5 m ρ c (Proc.devRef .tc main_v1) = W3 m ρ c (Proc.devRef .tc main_v1) :=
  keep35 m ρ c main_v1 (by decide) (by unfold hostOps2; after_results)
theorem v3_35 (c : Dev nD) : W5 m ρ c (Proc.devRef .tc main_v3) = W3 m ρ c (Proc.devRef .tc main_v3) :=
  keep35 m ρ c main_v3 (by decide) (by unfold hostOps2; after_results)
theorem arg6_35 (c : Dev nD) : W5 m ρ c (Proc.devRef .tc main_arg6) = W3 m ρ c (Proc.devRef .tc main_arg6) :=
  keep35 m ρ c main_arg6 (by decide) (by unfold hostOps2; after_results)
theorem arg7_35 (c : Dev nD) : W5 m ρ c (Proc.devRef .tc main_arg7) = W3 m ρ c (Proc.devRef .tc main_arg7) :=
  keep35 m ρ c main_arg7 (by decide) (by unfold hostOps2; after_results)
theorem arg8_35 (c : Dev nD) : W5 m ρ c (Proc.devRef .tc main_arg8) = W3 m ρ c (Proc.devRef .tc main_arg8) :=
  keep35 m ρ c main_arg8 (by decide) (by unfold hostOps2; after_results)
theorem arg9_35 (c : Dev nD) : W5 m ρ c (Proc.devRef .tc main_arg9) = W3 m ρ c (Proc.devRef .tc main_arg9) :=
  keep35 m ρ c main_arg9 (by decide) (by unfold hostOps2; after_results)
theorem v1_57 (c : Dev nD) : W7 m ρ c (Proc.devRef .tc main_v1) = W5 m ρ c (Proc.devRef .tc main_v1) :=
  keep57 m ρ c main_v1 (by decide) (by unfold hostOps3; after_results)
theorem v3_57 (c : Dev nD) : W7 m ρ c (Proc.devRef .tc main_v3) = W5 m ρ c (Proc.devRef .tc main_v3) :=
  keep57 m ρ c main_v3 (by decide) (by unfold hostOps3; after_results)
theorem arg8_57 (c : Dev nD) : W7 m ρ c (Proc.devRef .tc main_arg8) = W5 m ρ c (Proc.devRef .tc main_arg8) :=
  keep57 m ρ c main_arg8 (by decide) (by unfold hostOps3; after_results)
theorem arg9_57 (c : Dev nD) : W7 m ρ c (Proc.devRef .tc main_arg9) = W5 m ρ c (Proc.devRef .tc main_arg9) :=
  keep57 m ρ c main_arg9 (by decide) (by unfold hostOps3; after_results)

/-! ## Every boundary, in closed form -/

theorem src_at2 (c : Dev nD) : W2 m ρ c (Proc.devRef .tc main_v1) = srcOf (m ((c : Thread nD τ).loc main_arg1)) :=
  (W2_of_ne m ρ c main_v1 (by decide)).trans (src_at1 m ρ c)
theorem dst_at2 (c : Dev nD) : W2 m ρ c (Proc.devRef .tc main_v3) = dstOf (m ((c : Thread nD τ).loc main_arg1)) :=
  (W2_of_ne m ρ c main_v3 (by decide)).trans (dst_at1 m ρ c)
theorem arg5_at2 (c : Dev nD) : W2 m ρ c (Proc.devRef .tc main_arg5) = m ((c : Thread nD τ).loc main_arg5) :=
  (W2_of_ne m ρ c main_arg5 (by decide)).trans (arg5_at1 m ρ c)
theorem arg4_at3 (c : Dev nD) : W3 m ρ c (Proc.devRef .tc main_arg4) = m ((c : Thread nD τ).loc main_arg4) :=
  (arg4_13 m ρ c).trans (arg4_at1 m ρ c)
theorem src_at4 (c : Dev nD) : W4 m ρ c (Proc.devRef .tc main_v1) = srcOf (m ((c : Thread nD τ).loc main_arg1)) :=
  (W4_of_ne m ρ c main_v1 (by decide)).trans ((v1_13 m ρ c).trans (src_at1 m ρ c))
theorem dst_at4 (c : Dev nD) : W4 m ρ c (Proc.devRef .tc main_v3) = dstOf (m ((c : Thread nD τ).loc main_arg1)) :=
  (W4_of_ne m ρ c main_v3 (by decide)).trans ((v3_13 m ρ c).trans (dst_at1 m ρ c))
theorem arg7_at4 (c : Dev nD) : W4 m ρ c (Proc.devRef .tc main_arg7) = m ((c : Thread nD τ).loc main_arg7) :=
  (W4_of_ne m ρ c main_arg7 (by decide)).trans ((arg7_13 m ρ c).trans (arg7_at1 m ρ c))
theorem arg6_at5 (c : Dev nD) : W5 m ρ c (Proc.devRef .tc main_arg6) = m ((c : Thread nD τ).loc main_arg6) :=
  (arg6_35 m ρ c).trans ((arg6_13 m ρ c).trans (arg6_at1 m ρ c))
theorem src_at6 (c : Dev nD) : W6 m ρ c (Proc.devRef .tc main_v1) = srcOf (m ((c : Thread nD τ).loc main_arg1)) :=
  (W6_of_ne m ρ c main_v1 (by decide)).trans ((v1_35 m ρ c).trans ((v1_13 m ρ c).trans (src_at1 m ρ c)))
theorem dst_at6 (c : Dev nD) : W6 m ρ c (Proc.devRef .tc main_v3) = dstOf (m ((c : Thread nD τ).loc main_arg1)) :=
  (W6_of_ne m ρ c main_v3 (by decide)).trans ((v3_35 m ρ c).trans ((v3_13 m ρ c).trans (dst_at1 m ρ c)))
theorem arg9_at6 (c : Dev nD) : W6 m ρ c (Proc.devRef .tc main_arg9) = m ((c : Thread nD τ).loc main_arg9) :=
  (W6_of_ne m ρ c main_arg9 (by decide)).trans ((arg9_35 m ρ c).trans ((arg9_13 m ρ c).trans (arg9_at1 m ρ c)))
theorem arg8_at7 (c : Dev nD) : W7 m ρ c (Proc.devRef .tc main_arg8) = m ((c : Thread nD τ).loc main_arg8) :=
  (arg8_57 m ρ c).trans ((arg8_35 m ρ c).trans ((arg8_13 m ρ c).trans (arg8_at1 m ρ c)))

end Cert.KernelIdeal.KValue

end
-- ==== Proof.Spec.lean ====
/-
  One layer of the network, as a function of whole arrays, index by index, over the extended reals.

  A layer takes the node features `x` (n rows of `din` channels), the neighbour sums `agg` of the same shape, a weight
  matrix `W` (din × dout) and a bias `bias` (one entry per output channel). Row `r`, channel `q` of its result is

      (∑ k, (one * x r k + agg r k) * W k q) + bias q,

  where `one` is the float 1.0 both programs multiply the skip term by (kept as the literal's value: the same word on
  both sides, never evaluated), and `affineRelu` is its positive part `max · zero` against the float 0.0.
  Nothing here mentions a program: the two programs' layers are each shown to be these functions.
-/
import Idealize.ShloMosaic.PureOps.Ideal
import Idealize.ShloMosaic.Lib.ValueIdx

noncomputable section

namespace Cert.Gin

open Idealize.ShloMosaic Idealize.ShloMosaic.ValueIdx

/-- The float literal 1.0 that scales the skip term, at the ideal values. -/
abbrev one : EReal := Ideal.ofBits .f32 0x3F800000#32

/-- The float literal 0.0 the positive part is taken against, at the ideal values. -/
abbrev zero : EReal := Ideal.ofBits .f32 0x00000000#32

/-- The affine part of a layer: `((one · x + agg) W + bias)` at row `i 0`, channel `i 1`. -/
def affine {n din dout : Nat} (x agg : FVec Ideal ⟨2, ![n, din]⟩ .f32) (W : FVec Ideal ⟨2, ![din, dout]⟩ .f32)
    (bias : Fin dout → EReal) : FVec Ideal ⟨2, ![n, dout]⟩ .f32 :=
  fun i => (∑ k : Fin din, (one * x (ix2 (i 0 : Fin n) k) + agg (ix2 (i 0 : Fin n) k)) * W (ix2 k (i 1 : Fin dout)))
    + bias (i 1 : Fin dout)

/-- A hidden layer: the positive part of the affine part. -/
def affineRelu {n din dout : Nat} (x agg : FVec Ideal ⟨2, ![n, din]⟩ .f32) (W : FVec Ideal ⟨2, ![din, dout]⟩ .f32)
    (bias : Fin dout → EReal) : FVec Ideal ⟨2, ![n, dout]⟩ .f32 :=
  fun i => max (affine x agg W bias i) zero

theorem affine_apply {n din dout : Nat} (x agg : FVec Ideal ⟨2, ![n, din]⟩ .f32) (W : FVec Ideal ⟨2, ![din, dout]⟩ .f32)
    (bias : Fin dout → EReal) (r : Fin n) (q : Fin dout) :
    affine x agg W bias (ix2 r q) = (∑ k : Fin din, (one * x (ix2 r k) + agg (ix2 r k)) * W (ix2 k q)) + bias q := rfl

theorem affineRelu_apply {n din dout : Nat} (x agg : FVec Ideal ⟨2, ![n, din]⟩ .f32) (W : FVec Ideal ⟨2, ![din, dout]⟩ .f32)
    (bias : Fin dout → EReal) (r : Fin n) (q : Fin dout) :
    affineRelu x agg W bias (ix2 r q)
      = max ((∑ k : Fin din, (one * x (ix2 r k) + agg (ix2 r k)) * W (ix2 k q)) + bias q) zero := rfl

/-- Node features of `d` channels over the 20000 nodes. -/
abbrev X (d : Nat) : Type := FVec Ideal ⟨2, ![20000, d]⟩ .f32

/-- The whole network: three hidden layers and a linear last layer, each fed the previous layer's features and their
    neighbour sums. The neighbour-sum maps (`a128` on 128 channels, `a256` on 256) are parameters: both programs
    compute them by the same host operations, and nothing here depends on what they are. -/
def net (a128 : X 128 → X 128) (a256 : X 256 → X 256) (x : X 128)
    (W1 : FVec Ideal ⟨2, ![128, 256]⟩ .f32) (b1 : Fin 256 → EReal)
    (W2 : FVec Ideal ⟨2, ![256, 256]⟩ .f32) (b2 : Fin 256 → EReal)
    (W3 : FVec Ideal ⟨2, ![256, 256]⟩ .f32) (b3 : Fin 256 → EReal)
    (W4 : FVec Ideal ⟨2, ![256, 40]⟩ .f32) (b4 : Fin 40 → EReal) : X 40 :=
  let h1 := affineRelu x (a128 x) W1 b1
  let h2 := affineRelu h1 (a256 h1) W2 b2
  let h3 := affineRelu h2 (a256 h2) W3 b3
  affine h3 (a256 h3) W4 b4

end Cert.Gin

end
-- ==== Proof.KLayer0.lean ====
/-
  Region 0 of the kernel program, as one function of whole arrays: after the region's ten grid points its output array
  holds, at row `r` and channel `q`, the positive part of `(∑ k, (one * x r k + agg r k) * W k q) + bias q` of the arrays the
  region finds (features `x`, neighbour sums `agg`, weights `W`, bias row) — `Cert.Gin.affineRelu`. First the
  body's payload at one index of a block, then each window's block as rows of its array, then the ten blocks together.
-/
import proofs.«164107_j38560216383777_1_alg».proof.Proof.KernelIdealFrame
import proofs.«164107_j38560216383777_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

/-- The zero offsets of a whole-block access, however spelt. -/
theorem zero_offsets0 : (![0, 0] : Fin 2 → Nat) = fun _ => 0 := funext fun a => by fin_cases a <;> rfl

/-! ## Region 0: the body's payload at an index -/

/-- The left operand of region 0's product at output index `i`, contraction index `k`: row `i 0`, -/
theorem lhs0_row (i : S2000x256.Idx) (k : dot_S2000x128_S128x256_S2000x256_1_0_0_1_n_n.contr.Idx) :
    (dot_S2000x128_S128x256_S2000x256_1_0_0_1_n_n.lhsIdx i k 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl

/-- column `k`; -/
theorem lhs0_col (i : S2000x256.Idx) (k : dot_S2000x128_S128x256_S2000x256_1_0_0_1_n_n.contr.Idx) :
    (dot_S2000x128_S128x256_S2000x256_1_0_0_1_n_n.lhsIdx i k 1).val = (k ⟨0, by decide⟩).val :=
  dot_S2000x128_S128x256_S2000x256_1_0_0_1_n_n.lhsIdx_val_of_single rfl i k

/-- the right operand: row `k`, -/
theorem rhs0_row (i : S2000x256.Idx) (k : dot_S2000x128_S128x256_S2000x256_1_0_0_1_n_n.contr.Idx) :
    (dot_S2000x128_S128x256_S2000x256_1_0_0_1_n_n.rhsIdx i k 0).val = (k ⟨0, by decide⟩).val :=
  dot_S2000x128_S128x256_S2000x256_1_0_0_1_n_n.rhsIdx_val_of_single rfl i k

/-- column `i 1`. -/
theorem rhs0_col (i : S2000x256.Idx) (k : dot_S2000x128_S128x256_S2000x256_1_0_0_1_n_n.contr.Idx) :
    (dot_S2000x128_S128x256_S2000x256_1_0_0_1_n_n.rhsIdx i k 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Region 0's matrix product into the zero accumulator, at row `p` and channel `q`: the sum over the 128
    input channels of the products. -/
theorem matmul0_apply (l : FVec Ideal S2000x128 .bf16) (r : FVec Ideal S128x256 .bf16) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_row _ _
    | ⟨1, _⟩ => exact (lhs0_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_row _ _).trans hk
    | ⟨1, _⟩ => exact rhs0_col _ _)
  rw [el, er]

/-- The body's payload of region 0 at row `p`, channel `q` of its block: the layer's formula over the loaded blocks
    (the casts to the same shape and the truncations are identities at the ideal values). -/
theorem pay0_apply (x0 x1 : Vec Ideal S2000x128 .f32) (x2 : Vec Ideal S128x256 .f32) (x3 : Vec Ideal S1x256 .f32)
    (p : Fin 2000) (q : Fin 256) :
    k0_pay1 (F := Ideal) x0 x1 x2 x3 (ix2 p q)
      = max ((∑ k : Fin 128, (Cert.Gin.one * x0 (ix2 p k) + x1 (ix2 p k)) * x2 (ix2 k q)) + x3 (ix2 (0 : Fin 1) q)) Cert.Gin.zero := by
  unfold k0_pay1
  rw [shapeCast_self, shapeCast_self]
  rw [maximumf_apply, addf_apply, broadcastTo_1b_ab_apply, matmul0_apply]
  rfl

/-! ## Region 0: from the blocks to the array -/

/-- The block index maps of region 0, decided over its ten grid points: the row blocks of the features, of the
    neighbour sums and of the output move with the point; the weights and the bias row stay at block (0, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Region 0's grid has ten points. -/
theorem points0 : cfg0.N = 10 := by decide

section
variable (V : (c : Dev nD) → (b : Ref sig .tc) → Buf (Elt Ideal) ((c : Thread nD τ).loc b))

/-- The features' block at point `t` holds rows `2000 t … 2000 t + 1999` of the features. -/
theorem xBlock0_apply (c : Dev nD) (t : Fin cfg0.N) (p : Fin 2000) (k : Fin 128) (r : Fin 20000)
    (hr : r.val = t.val * 2000 + p.val) :
    (iblk0 V c 0 t : Vec Ideal S2000x128 .f32) (ix2 p k) = (V c main_arg0 : S20000x128.Idx → EReal) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The neighbour sums' block at point `t` holds the same rows of the neighbour sums. -/
theorem aggBlock0_apply (c : Dev nD) (t : Fin cfg0.N) (p : Fin 2000) (k : Fin 128) (r : Fin 20000)
    (hr : r.val = t.val * 2000 + p.val) :
    (iblk0 V c 1 t : Vec Ideal S2000x128 .f32) (ix2 p k) = (V c main_v13 : S20000x128.Idx → EReal) (ix2 r k) := by
  obtain ⟨-, -, e0, e1, -⟩ := blockIdx0 t
  unfold iblk0
  rw [View.read_apply]
  show V c main_v13 _ = V c main_v13 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The weights' block at every point is the whole weight matrix. -/
theorem wBlock0_apply (c : Dev nD) (t : Fin cfg0.N) (k : Fin 128) (q : Fin 256) :
    (iblk0 V c 2 t : Vec Ideal S128x256 .f32) (ix2 k q) = (V c main_arg2 : S128x256.Idx → EReal) (ix2 k q) := by
  obtain ⟨-, -, -, -, e0, e1, -⟩ := blockIdx0 t
  unfold iblk0
  rw [View.read_apply]
  show V c main_arg2 _ = V c main_arg2 _
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The bias row's block at every point is the whole bias row. -/
theorem biasBlock0_apply (c : Dev nD) (t : Fin cfg0.N) (z : Fin 1) (q : Fin 256) :
    (iblk0 V c 3 t : Vec Ideal S1x256 .f32) (ix2 z q) = (V c main_v14 : S1x256.Idx → EReal) (ix2 z q) := by
  obtain ⟨-, -, -, -, -, -, e0, e1, -⟩ := blockIdx0 t
  unfold iblk0
  rw [View.read_apply]
  show V c main_v14 _ = V c main_v14 _
  congr 1
  funext a
  apply Fin.ext
  match a with
  | ⟨0, _⟩ => show win0_3.index t (0 : Fin 2) * 1 + 1 * z.val = z.val; rw [e0]; omega
  | ⟨1, _⟩ => show win0_3.index t (1 : Fin 2) * 256 + 1 * q.val = q.val; rw [e1]; omega

/-- The layer of region 0 over the arrays the region finds. -/
abbrev layer0 (c : Dev nD) : S20000x256.Idx → EReal :=
  Cert.Gin.affineRelu (V c main_arg0) (V c main_v13) (V c main_arg2) (fun q => V c main_v14 (ix2 (0 : Fin 1) q))

/-- The payload over the blocks at point `t`, at row `p` and channel `q` of the block, is the layer at row
    `2000 t + p`, channel `q` of the array. -/
theorem payBlock0_apply (c : Dev nD) (t : Fin cfg0.N) (p : Fin 2000) (q : Fin 256) (r : Fin 20000)
    (hr : r.val = t.val * 2000 + p.val) :
    k0_pay1 (F := Ideal) (iblk0 V c 0 t) (iblk0 V c 1 t) (iblk0 V c 2 t) (iblk0 V c 3 t) (ix2 p q)
      = layer0 V c (ix2 r q) := by
  refine (pay0_apply _ _ _ _ p q).trans ?_
  refine Eq.trans ?_ (Cert.Gin.affineRelu_apply _ _ _ _ r q).symm
  rw [biasBlock0_apply V c t 0 q]
  refine congrArg (fun s => max (s + _) _) (Finset.sum_congr rfl fun k _ => ?_)
  rw [xBlock0_apply V c t p k r hr, aggBlock0_apply V c t p k r hr, wBlock0_apply V c t k q]

/-- What point `t` leaves in the output's staging buffer, written back, is block `t` of the layer. -/
theorem outBlock0_eq (c : Dev nD) (t : Fin cfg0.N) :
    (cfg0.win 4).cut (grid0.coords t) (out0_4 (iblk0 V c 0 t) (iblk0 V c 1 t) (iblk0 V c 2 t) (iblk0 V c 3 t))
      = ((cfg0.win 4).blk t).view.read (Elt Ideal) (layer0 V c) := by
  unfold out0_4
  rw [View.canon_unit_zero zero_offsets0]
  simp only [View.ld_unit_zero (S := S2000x128) zero_offsets0, View.ld_unit_zero (S := S128x256) zero_offsets0, View.ld_unit_zero (S := S1x256) zero_offsets0]
  obtain ⟨-, -, -, -, -, -, -, -, e0, e1⟩ := blockIdx0 t
  funext j
  obtain ⟨p, q, rfl⟩ : ∃ (p : Fin 2000) (q : Fin 256), j = ix2 p q := ⟨j 0, j 1, eq_ix2 j⟩
  have hN : cfg0.N = 10 := points0
  have hr : t.val * 2000 + p.val < 20000 := by have := t.isLt; have := p.isLt; omega
  rw [View.read_apply]
  refine (payBlock0_apply V c t p q ⟨t.val * 2000 + p.val, hr⟩ rfl).trans ?_
  show layer0 V c _ = layer0 V c _
  congr 1
  funext a
  apply Fin.ext
  match a with
  | ⟨0, _⟩ => show t.val * 2000 + p.val = win0_4.index t (0 : Fin 2) * 2000 + 1 * p.val; rw [e0]; omega
  | ⟨1, _⟩ => show q.val = win0_4.index t (1 : Fin 2) * 256 + 1 * q.val; rw [e1]; omega

/-- An index of the output array is in point `t`'s block iff each coordinate is in the block's range on its axis. -/
theorem mem_outBlock0 (t : Fin cfg0.N) (i : S20000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v15).slice (win0_4.rect t)).set ↔ _
  rw [View.set_slice_whole, Rect.mem_set_unit]
  exact Iff.rfl

/-- Every index of the output array is in some point's block: row `r` in that of point `r / 2000`. -/
theorem outCover0 (i : S20000x256.Idx) :
    ∃ t : Fin cfg0.N, (cfg0.win 4).flush t = true ∧ i ∈ ((cfg0.win 4).blk t).view.set := by
  have hi0 : (i 0).val < 20000 := (i 0).isLt
  have hi1 : (i 1).val < 256 := (i 1).isLt
  have hN : cfg0.N = 10 := points0
  refine ⟨⟨(i 0).val / 2000, by rw [hN]; omega⟩, flush0_4 _, ?_⟩
  rw [mem_outBlock0]
  obtain ⟨-, -, -, -, -, -, -, -, e0, e1⟩ := blockIdx0 ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e0]
    show (i 0).val / 2000 * 2000 ≤ (i 0).val ∧ (i 0).val < (i 0).val / 2000 * 2000 + 2000
    omega
  | ⟨1, _⟩ =>
    show win0_4.index _ (1 : Fin 2) * 256 ≤ (i 1).val ∧ (i 1).val < win0_4.index _ (1 : Fin 2) * 256 + 256
    rw [e1]
    omega

/-- What point `t` writes back to the output array is block `t` of the layer. -/
theorem flushed0_eq (c : Dev nD) (t : Fin cfg0.N) :
    (dat0 (F := Ideal) V c).flushed 4 t = ((cfg0.win 4).blk t).view.read (Elt Ideal) (layer0 V c) := by
  show (cfg0.win 4).cut (grid0.coords t) ((dat0 V c).after 4 t) = _
  rw [after0_4]
  exact outBlock0_eq V c t

/-- THE OUTPUT ARRAY OF REGION 0, after its ten points: the layer of the arrays the region finds (the points' blocks
    cover the array, so nothing of its entry contents is left). -/
theorem region0_out (c : Dev nD) :
    (dat0 (F := Ideal) V c).arrAt 4 cfg0.N
      = Cert.Gin.affineRelu (V c main_arg0) (V c main_v13) (V c main_arg2) (fun q => V c main_v14 (ix2 (0 : Fin 1) q)) :=
  (dat0 V c).arrAt_eq_of_cover 4 (layer0 V c) (fun t _ => flushed0_eq V c t) outCover0

end

end Cert.KernelIdeal.KValue
end
-- ==== Proof.KLayer1.lean ====
/-
  Region 1 of the kernel program, as one function of whole arrays: after the region's ten grid points its output array
  holds, at row `r` and channel `q`, the positive part of `(∑ k, (one * x r k + agg r k) * W k q) + bias q` of the arrays the
  region finds (features `x`, neighbour sums `agg`, weights `W`, bias row) — `Cert.Gin.affineRelu`. First the
  body's payload at one index of a block, then each window's block as rows of its array, then the ten blocks together.
-/
import proofs.«164107_j38560216383777_1_alg».proof.Proof.KernelIdealFrame
import proofs.«164107_j38560216383777_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

/-- The zero offsets of a whole-block access, however spelt. -/
theorem zero_offsets1 : (![0, 0] : Fin 2 → Nat) = fun _ => 0 := funext fun a => by fin_cases a <;> rfl

/-! ## Region 1: the body's payload at an index -/

/-- The left operand of region 1's product at output index `i`, contraction index `k`: row `i 0`, -/
theorem lhs1_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- column `k`; -/
theorem lhs1_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k

/-- the right operand: row `k`, -/
theorem rhs1_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k

/-- column `i 1`. -/
theorem rhs1_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Region 1's matrix product into the zero accumulator, at row `p` and channel `q`: the sum over the 256
    input channels of the products. -/
theorem matmul1_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs1_row _ _
    | ⟨1, _⟩ => exact (lhs1_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs1_row _ _).trans hk
    | ⟨1, _⟩ => exact rhs1_col _ _)
  rw [el, er]

/-- The body's payload of region 1 at row `p`, channel `q` of its block: the layer's formula over the loaded blocks
    (the casts to the same shape and the truncations are identities at the ideal values). -/
theorem pay1_apply (x0 x1 : Vec Ideal S2000x256 .f32) (x2 : Vec Ideal S256x256 .f32) (x3 : Vec Ideal S1x256 .f32)
    (p : Fin 2000) (q : Fin 256) :
    k1_pay1 (F := Ideal) x0 x1 x2 x3 (ix2 p q)
      = max ((∑ k : Fin 256, (Cert.Gin.one * x0 (ix2 p k) + x1 (ix2 p k)) * x2 (ix2 k q)) + x3 (ix2 (0 : Fin 1) q)) Cert.Gin.zero := by
  unfold k1_pay1
  rw [shapeCast_self, shapeCast_self, shapeCast_self]
  rw [maximumf_apply, addf_apply, broadcastTo_1b_ab_apply, matmul1_apply]
  rfl

/-! ## Region 1: from the blocks to the array -/

/-- The block index maps of region 1, decided over its ten grid points: the row blocks of the features, of the
    neighbour sums and of the output move with the point; the weights and the bias row stay at block (0, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Region 1's grid has ten points. -/
theorem points1 : cfg1.N = 10 := by decide

section
variable (V : (c : Dev nD) → (b : Ref sig .tc) → Buf (Elt Ideal) ((c : Thread nD τ).loc b))

/-- The features' block at point `t` holds rows `2000 t … 2000 t + 1999` of the features. -/
theorem xBlock1_apply (c : Dev nD) (t : Fin cfg1.N) (p : Fin 2000) (k : Fin 256) (r : Fin 20000)
    (hr : r.val = t.val * 2000 + p.val) :
    (iblk1 V c 0 t : Vec Ideal S2000x256 .f32) (ix2 p k) = (V c main_v15 : S20000x256.Idx → EReal) (ix2 r k) := by
  obtain ⟨e0, e1, -⟩ := blockIdx1 t
  unfold iblk1
  rw [View.read_apply]
  show V c main_v15 _ = V c main_v15 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The neighbour sums' block at point `t` holds the same rows of the neighbour sums. -/
theorem aggBlock1_apply (c : Dev nD) (t : Fin cfg1.N) (p : Fin 2000) (k : Fin 256) (r : Fin 20000)
    (hr : r.val = t.val * 2000 + p.val) :
    (iblk1 V c 1 t : Vec Ideal S2000x256 .f32) (ix2 p k) = (V c main_v25 : S20000x256.Idx → EReal) (ix2 r k) := by
  obtain ⟨-, -, e0, e1, -⟩ := blockIdx1 t
  unfold iblk1
  rw [View.read_apply]
  show V c main_v25 _ = V c main_v25 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The weights' block at every point is the whole weight matrix. -/
theorem wBlock1_apply (c : Dev nD) (t : Fin cfg1.N) (k : Fin 256) (q : Fin 256) :
    (iblk1 V c 2 t : Vec Ideal S256x256 .f32) (ix2 k q) = (V c main_arg4 : S256x256.Idx → EReal) (ix2 k q) := by
  obtain ⟨-, -, -, -, e0, e1, -⟩ := blockIdx1 t
  unfold iblk1
  rw [View.read_apply]
  show V c main_arg4 _ = V c main_arg4 _
  congr 1
  funext a
  apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The bias row's block at every point is the whole bias row. -/
theorem biasBlock1_apply (c : Dev nD) (t : Fin cfg1.N) (z : Fin 1) (q : Fin 256) :
    (iblk1 V c 3 t : Vec Ideal S1x256 .f32) (ix2 z q) = (V c main_v26 : S1x256.Idx → EReal) (ix2 z q) := by
  obtain ⟨-, -, -, -, -, -, e0, e1, -⟩ := blockIdx1 t
  unfold iblk1
  rw [View.read_apply]
  show V c main_v26 _ = V c main_v26 _
  congr 1
  funext a
  apply Fin.ext
  match a with
  | ⟨0, _⟩ => show win1_3.index t (0 : Fin 2) * 1 + 1 * z.val = z.val; rw [e0]; omega
  | ⟨1, _⟩ => show win1_3.index t (1 : Fin 2) * 256 + 1 * q.val = q.val; rw [e1]; omega

/-- The layer of region 1 over the arrays the region finds. -/
abbrev layer1 (c : Dev nD) : S20000x256.Idx → EReal :=
  Cert.Gin.affineRelu (V c main_v15) (V c main_v25) (V c main_arg4) (fun q => V c main_v26 (ix2 (0 : Fin 1) q))

/-- The payload over the blocks at point `t`, at row `p` and channel `q` of the block, is the layer at row
    `2000 t + p`, channel `q` of the array. -/
theorem payBlock1_apply (c : Dev nD) (t : Fin cfg1.N) (p : Fin 2000) (q : Fin 256) (r : Fin 20000)
    (hr : r.val = t.val * 2000 + p.val) :
    k1_pay1 (F := Ideal) (iblk1 V c 0 t) (iblk1 V c 1 t) (iblk1 V c 2 t) (iblk1 V c 3 t) (ix2 p q)
      = layer1 V c (ix2 r q) := by
  refine (pay1_apply _ _ _ _ p q).trans ?_
  refine Eq.trans ?_ (Cert.Gin.affineRelu_apply _ _ _ _ r q).symm
  rw [biasBlock1_apply V c t 0 q]
  refine congrArg (fun s => max (s + _) _) (Finset.sum_congr rfl fun k _ => ?_)
  rw [xBlock1_apply V c t p k r hr, aggBlock1_apply V c t p k r hr, wBlock1_apply V c t k q]

/-- What point `t` leaves in the output's staging buffer, written back, is block `t` of the layer. -/
theorem outBlock1_eq (c : Dev nD) (t : Fin cfg1.N) :
    (cfg1.win 4).cut (grid1.coords t) (out1_4 (iblk1 V c 0 t) (iblk1 V c 1 t) (iblk1 V c 2 t) (iblk1 V c 3 t))
      = ((cfg1.win 4).blk t).view.read (Elt Ideal) (layer1 V c) := by
  unfold out1_4
  rw [View.canon_unit_zero zero_offsets1]
  simp only [View.ld_unit_zero (S := S2000x256) zero_offsets1, View.ld_unit_zero (S := S256x256) zero_offsets1, View.ld_unit_zero (S := S1x256) zero_offsets1]
  obtain ⟨-, -, -, -, -, -, -, -, e0, e1⟩ := blockIdx1 t
  funext j
  obtain ⟨p, q, rfl⟩ : ∃ (p : Fin 2000) (q : Fin 256), j = ix2 p q := ⟨j 0, j 1, eq_ix2 j⟩
  have hN : cfg1.N = 10 := points1
  have hr : t.val * 2000 + p.val < 20000 := by have := t.isLt; have := p.isLt; omega
  rw [View.read_apply]
  refine (payBlock1_apply V c t p q ⟨t.val * 2000 + p.val, hr⟩ rfl).trans ?_
  show layer1 V c _ = layer1 V c _
  congr 1
  funext a
  apply Fin.ext
  match a with
  | ⟨0, _⟩ => show t.val * 2000 + p.val = win1_4.index t (0 : Fin 2) * 2000 + 1 * p.val; rw [e0]; omega
  | ⟨1, _⟩ => show q.val = win1_4.index t (1 : Fin 2) * 256 + 1 * q.val; rw [e1]; omega

/-- An index of the output array is in point `t`'s block iff each coordinate is in the block's range on its axis. -/
theorem mem_outBlock1 (t : Fin cfg1.N) (i : S20000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v27).slice (win1_4.rect t)).set ↔ _
  rw [View.set_slice_whole, Rect.mem_set_unit]
  exact Iff.rfl

/-- Every index of the output array is in some point's block: row `r` in that of point `r / 2000`. -/
theorem outCover1 (i : S20000x256.Idx) :
    ∃ t : Fin cfg1.N, (cfg1.win 4).flush t = true ∧ i ∈ ((cfg1.win 4).blk t).view.set := by
  have hi0 : (i 0).val < 20000 := (i 0).isLt
  have hi1 : (i 1).val < 256 := (i 1).isLt
  have hN : cfg1.N = 10 := points1
  refine ⟨⟨(i 0).val / 2000, by rw [hN]; omega⟩, flush1_4 _, ?_⟩
  rw [mem_outBlock1]
  obtain ⟨-, -, -, -, -, -, -, -, e0, e1⟩ := blockIdx1 ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]
    show (i 0).val / 2000 * 2000 ≤ (i 0).val ∧ (i 0).val < (i 0).val / 2000 * 2000 + 2000
    omega
  | ⟨1, _⟩ =>
    show win1_4.index _ (1 : Fin 2) * 256 ≤ (i 1).val ∧ (i 1).val < win1_4.index _ (1 : Fin 2) * 256 + 256
    rw [e1]
    omega

/-- What point `t` writes back to the output array is block `t` of the layer. -/
theorem flushed1_eq (c : Dev nD) (t : Fin cfg1.N) :
    (dat1 (F := Ideal) V c).flushed 4 t = ((cfg1.win 4).blk t).view.read (Elt Ideal) (layer1 V c) := by
  show (cfg1.win 4).cut (grid1.coords t) ((dat1 V c).after 4 t) = _
  rw [after1_4]
  exact outBlock1_eq V c t

/-- THE OUTPUT ARRAY OF REGION 1, after its ten points: the layer of the arrays the region finds (the points' blocks
    cover the array, so nothing of its entry contents is left). -/
theorem region1_out (c : Dev nD) :
    (dat1 (F := Ideal) V c).arrAt 4 cfg1.N
      = Cert.Gin.affineRelu (V c main_v15) (V c main_v25) (V c main_arg4) (fun q => V c main_v26 (ix2 (0 : Fin 1) q)) :=
  (dat1 V c).arrAt_eq_of_cover 4 (layer1 V c) (fun t _ => flushed1_eq V c t) outCover1

end

end Cert.KernelIdeal.KValue
end
-- ==== Proof.KLayer2.lean ====
/-
  Region 2 of the kernel program, as one function of whole arrays: after the region's ten grid points its output array
  holds, at row `r` and channel `q`, the positive part of `(∑ k, (one * x r k + agg r k) * W k q) + bias q` of the arrays the
  region finds (features `x`, neighbour sums `agg`, weights `W`, bias row) — `Cert.Gin.affineRelu`. First the
  body's payload at one index of a block, then each window's block as rows of its array, then the ten blocks together.
-/
import proofs.«164107_j38560216383777_1_alg».proof.Proof.KernelIdealFrame
import proofs.«164107_j38560216383777_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

/-- The zero offsets of a whole-block access, however spelt. -/
theorem zero_offsets2 : (![0, 0] : Fin 2 → Nat) = fun _ => 0 := funext fun a => by fin_cases a <;> rfl

/-! ## Region 2: the body's payload at an index -/

/-- The left operand of region 2's product at output index `i`, contraction index `k`: row `i 0`, -/
theorem lhs2_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- column `k`; -/
theorem lhs2_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k

/-- the right operand: row `k`, -/
theorem rhs2_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k

/-- column `i 1`. -/
theorem rhs2_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Region 2's matrix product into the zero accumulator, at row `p` and channel `q`: the sum over the 256
    input channels of the products. -/
theorem matmul2_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs2_row _ _
    | ⟨1, _⟩ => exact (lhs2_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs2_row _ _).trans hk
    | ⟨1, _⟩ => exact rhs2_col _ _)
  rw [el, er]

/-- The body's payload of region 2 at row `p`, channel `q` of its block: the layer's formula over the loaded blocks
    (the casts to the same shape and the truncations are identities at the ideal values). -/
theorem pay2_apply (x0 x1 : Vec Ideal S2000x256 .f32) (x2 : Vec Ideal S256x256 .f32) (x3 : Vec Ideal S1x256 .f32)
    (p : Fin 2000) (q : Fin 256) :
    k2_pay1 (F := Ideal) x0 x1 x2 x3 (ix2 p q)
      = max ((∑ k : Fin 256, (Cert.Gin.one * x0 (ix2 p k) + x1 (ix2 p k)) * x2 (ix2 k q)) + x3 (ix2 (0 : Fin 1) q)) Cert.Gin.zero := by
  unfold k2_pay1
  rw [shapeCast_self, shapeCast_self, shapeCast_self]
  rw [maximumf_apply, addf_apply, broadcastTo_1b_ab_apply, matmul2_apply]
  rfl

/-! ## Region 2: from the blocks to the array -/

/-- The block index maps of region 2, decided over its ten grid points: the row blocks of the features, of the
    neighbour sums and of the output move with the point; the weights and the bias row stay at block (0, 0). -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Region 2's grid has ten points. -/
theorem points2 : cfg2.N = 10 := by decide

section
variable (V : (c : Dev nD) → (b : Ref sig .tc) → Buf (Elt Ideal) ((c : Thread nD τ).loc b))

/-- The features' block at point `t` holds rows `2000 t … 2000 t + 1999` of the features. -/
theorem xBlock2_apply (c : Dev nD) (t : Fin cfg2.N) (p : Fin 2000) (k : Fin 256) (r : Fin 20000)
    (hr : r.val = t.val * 2000 + p.val) :
    (iblk2 V c 0 t : Vec Ideal S2000x256 .f32) (ix2 p k) = (V c main_v27 : S20000x256.Idx → EReal) (ix2 r k) := by
  obtain ⟨e0, e1, -⟩ := blockIdx2 t
  unfold iblk2
  rw [View.read_apply]
  show V c main_v27 _ = V c main_v27 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- The neighbour sums' block at point `t` holds the same rows of the neighbour sums. -/
theorem aggBlock2_apply (c : Dev nD) (t : Fin cfg2.N) (p : Fin 2000) (k : Fin 256) (r : Fin 20000)
    (hr : r.val = t.val * 2000 + p.val) :
    (iblk2 V c 1 t : Vec Ideal S2000x256 .f32) (ix2 p k) = (V c main_v37 : S20000x256.Idx → EReal) (ix2 r k) := by
  obtain ⟨-, -, e0, e1, -⟩ := blockIdx2 t
  unfold iblk2
  rw [View.read_apply]
  show V c main_v37 _ = V c main_v37 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 256 + 1 * k.val = k.val; rw [e1]; omega

/-- The weights' block at every point is the whole weight matrix. -/
theorem wBlock2_apply (c : Dev nD) (t : Fin cfg2.N) (k : Fin 256) (q : Fin 256) :
    (iblk2 V c 2 t : Vec Ideal S256x256 .f32) (ix2 k q) = (V c main_arg6 : S256x256.Idx → EReal) (ix2 k q) := by
  obtain ⟨-, -, -, -, e0, e1, -⟩ := blockIdx2 t
  unfold iblk2
  rw [View.read_apply]
  show V c main_arg6 _ = V c main_arg6 _
  congr 1
  funext a
  apply Fin.ext
  match a with
  | ⟨0, _⟩ => show win2_2.index t (0 : Fin 2) * 256 + 1 * k.val = k.val; rw [e0]; omega
  | ⟨1, _⟩ => show win2_2.index t (1 : Fin 2) * 256 + 1 * q.val = q.val; rw [e1]; omega

/-- The bias row's block at every point is the whole bias row. -/
theorem biasBlock2_apply (c : Dev nD) (t : Fin cfg2.N) (z : Fin 1) (q : Fin 256) :
    (iblk2 V c 3 t : Vec Ideal S1x256 .f32) (ix2 z q) = (V c main_v38 : S1x256.Idx → EReal) (ix2 z q) := by
  obtain ⟨-, -, -, -, -, -, e0, e1, -⟩ := blockIdx2 t
  unfold iblk2
  rw [View.read_apply]
  show V c main_v38 _ = V c main_v38 _
  congr 1
  funext a
  apply Fin.ext
  match a with
  | ⟨0, _⟩ => show win2_3.index t (0 : Fin 2) * 1 + 1 * z.val = z.val; rw [e0]; omega
  | ⟨1, _⟩ => show win2_3.index t (1 : Fin 2) * 256 + 1 * q.val = q.val; rw [e1]; omega

/-- The layer of region 2 over the arrays the region finds. -/
abbrev layer2 (c : Dev nD) : S20000x256.Idx → EReal :=
  Cert.Gin.affineRelu (V c main_v27) (V c main_v37) (V c main_arg6) (fun q => V c main_v38 (ix2 (0 : Fin 1) q))

/-- The payload over the blocks at point `t`, at row `p` and channel `q` of the block, is the layer at row
    `2000 t + p`, channel `q` of the array. -/
theorem payBlock2_apply (c : Dev nD) (t : Fin cfg2.N) (p : Fin 2000) (q : Fin 256) (r : Fin 20000)
    (hr : r.val = t.val * 2000 + p.val) :
    k2_pay1 (F := Ideal) (iblk2 V c 0 t) (iblk2 V c 1 t) (iblk2 V c 2 t) (iblk2 V c 3 t) (ix2 p q)
      = layer2 V c (ix2 r q) := by
  refine (pay2_apply _ _ _ _ p q).trans ?_
  refine Eq.trans ?_ (Cert.Gin.affineRelu_apply _ _ _ _ r q).symm
  rw [biasBlock2_apply V c t 0 q]
  refine congrArg (fun s => max (s + _) _) (Finset.sum_congr rfl fun k _ => ?_)
  rw [xBlock2_apply V c t p k r hr, aggBlock2_apply V c t p k r hr, wBlock2_apply V c t k q]

/-- What point `t` leaves in the output's staging buffer, written back, is block `t` of the layer. -/
theorem outBlock2_eq (c : Dev nD) (t : Fin cfg2.N) :
    (cfg2.win 4).cut (grid2.coords t) (out2_4 (iblk2 V c 0 t) (iblk2 V c 1 t) (iblk2 V c 2 t) (iblk2 V c 3 t))
      = ((cfg2.win 4).blk t).view.read (Elt Ideal) (layer2 V c) := by
  unfold out2_4
  rw [View.canon_unit_zero zero_offsets2]
  simp only [View.ld_unit_zero (S := S2000x256) zero_offsets2, View.ld_unit_zero (S := S256x256) zero_offsets2, View.ld_unit_zero (S := S1x256) zero_offsets2]
  obtain ⟨-, -, -, -, -, -, -, -, e0, e1⟩ := blockIdx2 t
  funext j
  obtain ⟨p, q, rfl⟩ : ∃ (p : Fin 2000) (q : Fin 256), j = ix2 p q := ⟨j 0, j 1, eq_ix2 j⟩
  have hN : cfg2.N = 10 := points2
  have hr : t.val * 2000 + p.val < 20000 := by have := t.isLt; have := p.isLt; omega
  rw [View.read_apply]
  refine (payBlock2_apply V c t p q ⟨t.val * 2000 + p.val, hr⟩ rfl).trans ?_
  show layer2 V c _ = layer2 V c _
  congr 1
  funext a
  apply Fin.ext
  match a with
  | ⟨0, _⟩ => show t.val * 2000 + p.val = win2_4.index t (0 : Fin 2) * 2000 + 1 * p.val; rw [e0]; omega
  | ⟨1, _⟩ => show q.val = win2_4.index t (1 : Fin 2) * 256 + 1 * q.val; rw [e1]; omega

/-- An index of the output array is in point `t`'s block iff each coordinate is in the block's range on its axis. -/
theorem mem_outBlock2 (t : Fin cfg2.N) (i : S20000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v39).slice (win2_4.rect t)).set ↔ _
  rw [View.set_slice_whole, Rect.mem_set_unit]
  exact Iff.rfl

/-- Every index of the output array is in some point's block: row `r` in that of point `r / 2000`. -/
theorem outCover2 (i : S20000x256.Idx) :
    ∃ t : Fin cfg2.N, (cfg2.win 4).flush t = true ∧ i ∈ ((cfg2.win 4).blk t).view.set := by
  have hi0 : (i 0).val < 20000 := (i 0).isLt
  have hi1 : (i 1).val < 256 := (i 1).isLt
  have hN : cfg2.N = 10 := points2
  refine ⟨⟨(i 0).val / 2000, by rw [hN]; omega⟩, flush2_4 _, ?_⟩
  rw [mem_outBlock2]
  obtain ⟨-, -, -, -, -, -, -, -, e0, e1⟩ := blockIdx2 ⟨(i 0).val / 2000, by rw [hN]; omega⟩
  intro a
  match a with
  | ⟨0, _⟩ =>
    show win2_4.index _ (0 : Fin 2) * 2000 ≤ (i 0).val ∧ (i 0).val < win2_4.index _ (0 : Fin 2) * 2000 + 2000
    rw [e0]
    show (i 0).val / 2000 * 2000 ≤ (i 0).val ∧ (i 0).val < (i 0).val / 2000 * 2000 + 2000
    omega
  | ⟨1, _⟩ =>
    show win2_4.index _ (1 : Fin 2) * 256 ≤ (i 1).val ∧ (i 1).val < win2_4.index _ (1 : Fin 2) * 256 + 256
    rw [e1]
    omega

/-- What point `t` writes back to the output array is block `t` of the layer. -/
theorem flushed2_eq (c : Dev nD) (t : Fin cfg2.N) :
    (dat2 (F := Ideal) V c).flushed 4 t = ((cfg2.win 4).blk t).view.read (Elt Ideal) (layer2 V c) := by
  show (cfg2.win 4).cut (grid2.coords t) ((dat2 V c).after 4 t) = _
  rw [after2_4]
  exact outBlock2_eq V c t

/-- THE OUTPUT ARRAY OF REGION 2, after its ten points: the layer of the arrays the region finds (the points' blocks
    cover the array, so nothing of its entry contents is left). -/
theorem region2_out (c : Dev nD) :
    (dat2 (F := Ideal) V c).arrAt 4 cfg2.N
      = Cert.Gin.affineRelu (V c main_v27) (V c main_v37) (V c main_arg6) (fun q => V c main_v38 (ix2 (0 : Fin 1) q)) :=
  (dat2 V c).arrAt_eq_of_cover 4 (layer2 V c) (fun t _ => flushed2_eq V c t) outCover2

end

end Cert.KernelIdeal.KValue
end
-- ==== Proof.KLayer3.lean ====
import proofs.«164107_j38560216383777_1_alg».proof.Proof.KernelIdealFrame
import proofs.«164107_j38560216383777_1_alg».proof.Proof.Spec
import Idealize.ShloMosaic.Lib.ValueIdx
import Idealize.ShloMosaic.Lib.Pipeline.Value
import Idealize.ShloMosaic.Lib.ValueLayout
import Idealize.ShloMosaic.PureOps.Ideal.Laws

/-
  Region 3 of the kernel program, as one function of whole arrays: after the region's ten grid points its output array
  holds, at row `r` and channel `q`, `(∑ k, (one * x r k + agg r k) * W k q) + bias q` of the arrays the
  region finds (features `x` of 256 channels, their neighbour sums `agg`, the `[256, 40]` weights `W`, the bias row) —
  `Cert.Gin.affine`, the last layer, with no maximum. First the body's payload at one index of a block (a product of the
  `[2000, 256]` block with the whole weight matrix, summed over the 256 input channels, plus the bias row), then each
  window's block as rows of its array (point `t` holds rows `2000 t … 2000 t + 1999`; the weights and the bias row are
  whole at every point), then the ten blocks together: they tile the `[20000, 40]` output.
-/
noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

/-- The zero offsets of a whole-block access, however spelt. -/
theorem zero_offsets3 : (![0, 0] : Fin 2 → Nat) = fun _ => 0 := funext fun a => by fin_cases a <;> rfl

/-! ## Region 3: the body's payload at an index -/

/-- The left operand of region 3's product at output index `i`, contraction index `k`: row `i 0`, -/
theorem lhs3_row (i : S2000x40.Idx) (k : dot_S2000x256_S256x40_S2000x40_1_0_0_1_n_n.contr.Idx) :
    (dot_S2000x256_S256x40_S2000x40_1_0_0_1_n_n.lhsIdx i k 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl

/-- column `k`; -/
theorem lhs3_col (i : S2000x40.Idx) (k : dot_S2000x256_S256x40_S2000x40_1_0_0_1_n_n.contr.Idx) :
    (dot_S2000x256_S256x40_S2000x40_1_0_0_1_n_n.lhsIdx i k 1).val = (k ⟨0, by decide⟩).val :=
  dot_S2000x256_S256x40_S2000x40_1_0_0_1_n_n.lhsIdx_val_of_single rfl i k

/-- the right operand: row `k`, -/
theorem rhs3_row (i : S2000x40.Idx) (k : dot_S2000x256_S256x40_S2000x40_1_0_0_1_n_n.contr.Idx) :
    (dot_S2000x256_S256x40_S2000x40_1_0_0_1_n_n.rhsIdx i k 0).val = (k ⟨0, by decide⟩).val :=
  dot_S2000x256_S256x40_S2000x40_1_0_0_1_n_n.rhsIdx_val_of_single rfl i k

/-- column `i 1`. -/
theorem rhs3_col (i : S2000x40.Idx) (k : dot_S2000x256_S256x40_S2000x40_1_0_0_1_n_n.contr.Idx) :
    (dot_S2000x256_S256x40_S2000x40_1_0_0_1_n_n.rhsIdx i k 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- Region 3's matrix product into the zero accumulator, at row `p` and channel `q`: the sum over the 256
    input channels of the products. -/
theorem matmul3_apply (l : FVec Ideal S2000x256 .bf16) (r : FVec Ideal S256x40 .bf16) (p : Fin 2000) (q : Fin 40) :
    matmul dot_S2000x256_S256x40_S2000x40_1_0_0_1_n_n none l r (constant (F := Ideal) S2000x40 .f32 0x00000000#32) (ix2 p q)
      = ∑ k : Fin 256, l (ix2 p k) * r (ix2 k q) := by
  simp only [matmul]
  rw [Ideal.matmul_constant_zero_apply, ← Equiv.sum_comp (contrEquiv1 dot_S2000x256_S256x40_S2000x40_1_0_0_1_n_n 256 rfl rfl).symm]
  refine Finset.sum_congr rfl fun k _ => ?_
  have hk := contrEquiv1_symm_val dot_S2000x256_S256x40_S2000x40_1_0_0_1_n_n 256 rfl rfl k
  have el : dot_S2000x256_S256x40_S2000x40_1_0_0_1_n_n.lhsIdx (ix2 p q) ((contrEquiv1 dot_S2000x256_S256x40_S2000x40_1_0_0_1_n_n 256 rfl rfl).symm k) = ix2 p k := funext fun a => Fin.ext (by
    match a with
    | ⟨0, _⟩ => exact lhs3_row _ _
    | ⟨1, _⟩ => exact (lhs3_col _ _).trans hk)
  have er : dot_S2000x256_S256x40_S2000x40_1_0_0_1_n_n.rhsIdx (ix2 p q) ((contrEquiv1 dot_S2000x256_S256x40_S2000x40_1_0_0_1_n_n 256 rfl rfl).symm k) = ix2 k q := funext fun a => Fin.ext (by
    match a with
    | ⟨0, _⟩ => exact (rhs3_row _ _).trans hk
    | ⟨1, _⟩ => exact rhs3_col _ _)
  rw [el, er]

/-- The body's payload of region 3 at row `p`, channel `q` of its block: the layer's formula over the loaded blocks
    (the casts to the same shape and the truncations are identities at the ideal values). -/
theorem pay3_apply (x0 x1 : Vec Ideal S2000x256 .f32) (x2 : Vec Ideal S256x40 .f32) (x3 : Vec Ideal S1x40 .f32)
    (p : Fin 2000) (q : Fin 40) :
    k3_pay1 (F := Ideal) x0 x1 x2 x3 (ix2 p q)
      = (∑ k : Fin 256, (Cert.Gin.one * x0 (ix2 p k) + x1 (ix2 p k)) * x2 (ix2 k q)) + x3 (ix2 (0 : Fin 1) q) := by
  unfold k3_pay1
  rw [shapeCast_self, shapeCast_self, shapeCast_self]
  rw [addf_apply, broadcastTo_1b_ab_apply, matmul3_apply]
  rfl

/-! ## Region 3: from the blocks to the array -/

/-- The block index maps of region 3, decided over its ten grid points: the row blocks of the features, of the
    neighbour sums and of the output move with the point; the weights and the bias row stay at block (0, 0). -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Region 3's grid has ten points. -/
theorem points3 : cfg3.N = 10 := by decide

section
variable (V : (c : Dev nD) → (b : Ref sig .tc) → Buf (Elt Ideal) ((c : Thread nD τ).loc b))

/-- The features' block at point `t` holds rows `2000 t … 2000 t + 1999` of the features. -/
theorem xBlock3_apply (c : Dev nD) (t : Fin cfg3.N) (p : Fin 2000) (k : Fin 256) (r : Fin 20000)
    (hr : r.val = t.val * 2000 + p.val) :
    (iblk3 V c 0 t : Vec Ideal S2000x256 .f32) (ix2 p k) = (V c main_v39 : S20000x256.Idx → EReal) (ix2 r k) := by
  obtain ⟨e0, e1, -⟩ := blockIdx3 t
  unfold iblk3
  rw [View.read_apply]
  show V c main_v39 _ = V c main_v39 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * k.val = k.val; rw [e1]; omega

/-- The neighbour sums' block at point `t` holds the same rows of the neighbour sums. -/
theorem aggBlock3_apply (c : Dev nD) (t : Fin cfg3.N) (p : Fin 2000) (k : Fin 256) (r : Fin 20000)
    (hr : r.val = t.val * 2000 + p.val) :
    (iblk3 V c 1 t : Vec Ideal S2000x256 .f32) (ix2 p k) = (V c main_v49 : S20000x256.Idx → EReal) (ix2 r k) := by
  obtain ⟨-, -, e0, e1, -⟩ := blockIdx3 t
  unfold iblk3
  rw [View.read_apply]
  show V c main_v49 _ = V c main_v49 _
  congr 1
  funext a
  apply Fin.ext
  match a with
  | ⟨0, _⟩ => show win3_1.index t (0 : Fin 2) * 2000 + 1 * p.val = r.val; rw [e0, hr]; omega
  | ⟨1, _⟩ => show win3_1.index t (1 : Fin 2) * 256 + 1 * k.val = k.val; rw [e1]; omega

/-- The weights' block at every point is the whole weight matrix. -/
theorem wBlock3_apply (c : Dev nD) (t : Fin cfg3.N) (k : Fin 256) (q : Fin 40) :
    (iblk3 V c 2 t : Vec Ideal S256x40 .f32) (ix2 k q) = (V c main_arg8 : S256x40.Idx → EReal) (ix2 k q) := by
  obtain ⟨-, -, -, -, e0, e1, -⟩ := blockIdx3 t
  unfold iblk3
  rw [View.read_apply]
  show V c main_arg8 _ = V c main_arg8 _
  congr 1
  funext a
  apply Fin.ext
  match a with
  | ⟨0, _⟩ => show win3_2.index t (0 : Fin 2) * 256 + 1 * k.val = k.val; rw [e0]; omega
  | ⟨1, _⟩ => show win3_2.index t (1 : Fin 2) * 40 + 1 * q.val = q.val; rw [e1]; omega

/-- The bias row's block at every point is the whole bias row. -/
theorem biasBlock3_apply (c : Dev nD) (t : Fin cfg3.N) (z : Fin 1) (q : Fin 40) :
    (iblk3 V c 3 t : Vec Ideal S1x40 .f32) (ix2 z q) = (V c main_v50 : S1x40.Idx → EReal) (ix2 z q) := by
  obtain ⟨-, -, -, -, -, -, e0, e1, -⟩ := blockIdx3 t
  unfold iblk3
  rw [View.read_apply]
  show V c main_v50 _ = V c main_v50 _
  congr 1
  funext a
  apply Fin.ext
  match a with
  | ⟨0, _⟩ => show win3_3.index t (0 : Fin 2) * 1 + 1 * z.val = z.val; rw [e0]; omega
  | ⟨1, _⟩ => show win3_3.index t (1 : Fin 2) * 40 + 1 * q.val = q.val; rw [e1]; omega

/-- The layer of region 3 over the arrays the region finds. -/
abbrev layer3 (c : Dev nD) : S20000x40.Idx → EReal :=
  Cert.Gin.affine (V c main_v39) (V c main_v49) (V c main_arg8) (fun q => V c main_v50 (ix2 (0 : Fin 1) q))

/-- The payload over the blocks at point `t`, at row `p` and channel `q` of the block, is the layer at row
    `2000 t + p`, channel `q` of the array. -/
theorem payBlock3_apply (c : Dev nD) (t : Fin cfg3.N) (p : Fin 2000) (q : Fin 40) (r : Fin 20000)
    (hr : r.val = t.val * 2000 + p.val) :
    k3_pay1 (F := Ideal) (iblk3 V c 0 t) (iblk3 V c 1 t) (iblk3 V c 2 t) (iblk3 V c 3 t) (ix2 p q)
      = layer3 V c (ix2 r q) := by
  refine (pay3_apply _ _ _ _ p q).trans ?_
  refine Eq.trans ?_ (Cert.Gin.affine_apply _ _ _ _ r q).symm
  rw [biasBlock3_apply V c t 0 q]
  refine congrArg (fun s => s + _) (Finset.sum_congr rfl fun k _ => ?_)
  rw [xBlock3_apply V c t p k r hr, aggBlock3_apply V c t p k r hr, wBlock3_apply V c t k q]

/-- What point `t` leaves in the output's staging buffer, written back, is block `t` of the layer. -/
theorem outBlock3_eq (c : Dev nD) (t : Fin cfg3.N) :
    (cfg3.win 4).cut (grid3.coords t) (out3_4 (iblk3 V c 0 t) (iblk3 V c 1 t) (iblk3 V c 2 t) (iblk3 V c 3 t))
      = ((cfg3.win 4).blk t).view.read (Elt Ideal) (layer3 V c) := by
  unfold out3_4
  rw [View.canon_unit_zero zero_offsets3]
  simp only [View.ld_unit_zero (S := S2000x256) zero_offsets3, View.ld_unit_zero (S := S256x40) zero_offsets3, View.ld_unit_zero (S := S1x40) zero_offsets3]
  obtain ⟨-, -, -, -, -, -, -, -, e0, e1⟩ := blockIdx3 t
  funext j
  obtain ⟨p, q, rfl⟩ : ∃ (p : Fin 2000) (q : Fin 40), j = ix2 p q := ⟨j 0, j 1, eq_ix2 j⟩
  have hN : cfg3.N = 10 := points3
  have hr : t.val * 2000 + p.val < 20000 := by have := t.isLt; have := p.isLt; omega
  rw [View.read_apply]
  refine (payBlock3_apply V c t p q ⟨t.val * 2000 + p.val, hr⟩ rfl).trans ?_
  show layer3 V c _ = layer3 V c _
  congr 1
  funext a
  apply Fin.ext
  match a with
  | ⟨0, _⟩ => show t.val * 2000 + p.val = win3_4.index t (0 : Fin 2) * 2000 + 1 * p.val; rw [e0]; omega
  | ⟨1, _⟩ => show q.val = win3_4.index t (1 : Fin 2) * 40 + 1 * q.val; rw [e1]; omega

/-- An index of the output array is in point `t`'s block iff each coordinate is in the block's range on its axis. -/
theorem mem_outBlock3 (t : Fin cfg3.N) (i : S20000x40.Idx) :
    i ∈ ((cfg3.win 4).blk t).view.set ↔ ∀ a : Fin 2, win3_4.index t a * S2000x40.size a ≤ (i a).val ∧ (i a).val < win3_4.index t a * S2000x40.size a + S2000x40.size a := by
  show i ∈ ((View.whole main_v51).slice (win3_4.rect t)).set ↔ _
  rw [View.set_slice_whole, Rect.mem_set_unit]
  exact Iff.rfl

/-- Every index of the output array is in some point's block: row `r` in that of point `r / 2000`. -/
theorem outCover3 (i : S20000x40.Idx) :
    ∃ t : Fin cfg3.N, (cfg3.win 4).flush t = true ∧ i ∈ ((cfg3.win 4).blk t).view.set := by
  have hi0 : (i 0).val < 20000 := (i 0).isLt
  have hi1 : (i 1).val < 40 := (i 1).isLt
  have hN : cfg3.N = 10 := points3
  refine ⟨⟨(i 0).val / 2000, by rw [hN]; omega⟩, flush3_4 _, ?_⟩
  rw [mem_outBlock3]
  obtain ⟨-, -, -, -, -, -, -, -, e0, e1⟩ := blockIdx3 ⟨(i 0).val / 2000, by rw [hN]; omega⟩
  intro a
  match a with
  | ⟨0, _⟩ =>
    show win3_4.index _ (0 : Fin 2) * 2000 ≤ (i 0).val ∧ (i 0).val < win3_4.index _ (0 : Fin 2) * 2000 + 2000
    rw [e0]
    show (i 0).val / 2000 * 2000 ≤ (i 0).val ∧ (i 0).val < (i 0).val / 2000 * 2000 + 2000
    omega
  | ⟨1, _⟩ =>
    show win3_4.index _ (1 : Fin 2) * 40 ≤ (i 1).val ∧ (i 1).val < win3_4.index _ (1 : Fin 2) * 40 + 40
    rw [e1]
    omega

/-- What point `t` writes back to the output array is block `t` of the layer. -/
theorem flushed3_eq (c : Dev nD) (t : Fin cfg3.N) :
    (dat3 (F := Ideal) V c).flushed 4 t = ((cfg3.win 4).blk t).view.read (Elt Ideal) (layer3 V c) := by
  show (cfg3.win 4).cut (grid3.coords t) ((dat3 V c).after 4 t) = _
  rw [after3_4]
  exact outBlock3_eq V c t

/-- THE OUTPUT ARRAY OF REGION 3, after its ten points: the layer of the arrays the region finds (the points' blocks
    cover the array, so nothing of its entry contents is left). -/
theorem region3_out (c : Dev nD) :
    (dat3 (F := Ideal) V c).arrAt 4 cfg3.N
      = Cert.Gin.affine (V c main_v39) (V c main_v49) (V c main_arg8) (fun q => V c main_v50 (ix2 (0 : Fin 1) q)) :=
  (dat3 V c).arrAt_eq_of_cover 4 (layer3 V c) (fun t _ => flushed3_eq V c t) outCover3

end

end Cert.KernelIdeal.KValue
end
-- ==== Proof.KFeat.lean ====
/-
  The idealized kernel's result as one function of its arguments.

  Every launch leaves in its output array one layer (`Cert.Gin.affineRelu`, the last one `Cert.Gin.affine`) of the
  four arrays it finds: the previous features, their neighbour sums, the weights, and the bias as a one-row matrix.
  The stretch of host operations before a launch computes the neighbour sums of the previous features from the two
  id rows (the chain `aggOf128` / `aggOf256`, carried whole) and reshapes the bias vector to one row; it leaves the
  previous features, the weights and every other argument alone. Read buffer by buffer, the boundary contents give
  the features after each launch (`feat1`, `feat2`, `feat3`) and the result (`outOf`) as functions of the launch
  memory: together they are `Cert.Gin.net` of the arguments.
-/
import proofs.«164107_j38560216383777_1_alg».proof.Proof.KKeep
import proofs.«164107_j38560216383777_1_alg».proof.Proof.KLayer0
import proofs.«164107_j38560216383777_1_alg».proof.Proof.KLayer1
import proofs.«164107_j38560216383777_1_alg».proof.Proof.KLayer2
import proofs.«164107_j38560216383777_1_alg».proof.Proof.KLayer3
import Idealize.ShloMosaic.Lib.ValueLayout

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The features after each launch, as functions of the launch memory -/

/-- The features after the first layer. -/
def feat1 (c : Dev nD) : Cert.Gin.X 256 :=
  Cert.Gin.affineRelu (m ((c : Thread nD τ).loc main_arg0)) (aggOf128 (m ((c : Thread nD τ).loc main_arg0)) (srcOf (m ((c : Thread nD τ).loc main_arg1))) (dstOf (m ((c : Thread nD τ).loc main_arg1)))) (m ((c : Thread nD τ).loc main_arg2)) (fun q => m ((c : Thread nD τ).loc main_arg3) (ix1 q))
/-- The features after the second layer. -/
def feat2 (c : Dev nD) : Cert.Gin.X 256 :=
  Cert.Gin.affineRelu (feat1 m c) (aggOf256 (feat1 m c) (srcOf (m ((c : Thread nD τ).loc main_arg1))) (dstOf (m ((c : Thread nD τ).loc main_arg1)))) (m ((c : Thread nD τ).loc main_arg4)) (fun q => m ((c : Thread nD τ).loc main_arg5) (ix1 q))
/-- The features after the third layer. -/
def feat3 (c : Dev nD) : Cert.Gin.X 256 :=
  Cert.Gin.affineRelu (feat2 m c) (aggOf256 (feat2 m c) (srcOf (m ((c : Thread nD τ).loc main_arg1))) (dstOf (m ((c : Thread nD τ).loc main_arg1)))) (m ((c : Thread nD τ).loc main_arg6)) (fun q => m ((c : Thread nD τ).loc main_arg7) (ix1 q))
/-- The last, linear layer: the result. -/
def outOf (c : Dev nD) : Cert.Gin.X 40 :=
  Cert.Gin.affine (feat3 m c) (aggOf256 (feat3 m c) (srcOf (m ((c : Thread nD τ).loc main_arg1))) (dstOf (m ((c : Thread nD τ).loc main_arg1)))) (m ((c : Thread nD τ).loc main_arg8)) (fun q => m ((c : Thread nD τ).loc main_arg9) (ix1 q))

/-! ## The first launch -/

theorem agg_at1 (c : Dev nD) : W1 m ρ c (Proc.devRef .tc main_v13) = aggOf128 (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  unfold hostOps0; after_results; rfl
theorem bias_at1 (c : Dev nD) : W1 m ρ c (Proc.devRef .tc main_v14) = shapeCast S1x256 (m ((c : Thread nD τ).loc main_arg3)) shapeCasts_S256_S1x256 := by
  show StableHlo.after hostOps0 (W0 m ρ c) (Proc.devRef .tc main_v14) = _
  unfold hostOps0; after_results; rfl

theorem feat_at2 (c : Dev nD) : W2 m ρ c (Proc.devRef .tc main_v15) = feat1 m c := by
  refine (W2_arr m ρ c 4).trans ((region0_out (V1 m ρ) c).trans ?_)
  show Cert.Gin.affineRelu (W1 m ρ c (Proc.devRef .tc main_arg0)) (W1 m ρ c (Proc.devRef .tc main_v13)) (W1 m ρ c (Proc.devRef .tc main_arg2))
      (fun q => W1 m ρ c (Proc.devRef .tc main_v14) (ix2 (0 : Fin 1) q)) = _
  rw [arg0_at1, agg_at1, arg2_at1, bias_at1]
  unfold feat1
  exact congrArg _ (funext fun q => shapeCast_a_1a_apply _ _ 0 q)

/-! ## The second launch -/

theorem x_at3 (c : Dev nD) : W3 m ρ c (Proc.devRef .tc main_v15) = W2 m ρ c (Proc.devRef .tc main_v15) := by
  show StableHlo.after hostOps1 (W2 m ρ c) (Proc.devRef .tc main_v15) = _
  unfold hostOps1; after_results
theorem agg_at3 (c : Dev nD) : W3 m ρ c (Proc.devRef .tc main_v25)
    = aggOf256 (W2 m ρ c (Proc.devRef .tc main_v15)) (W2 m ρ c (Proc.devRef .tc main_v1)) (W2 m ρ c (Proc.devRef .tc main_v3)) := by
  show StableHlo.after hostOps1 (W2 m ρ c) (Proc.devRef .tc main_v25) = _
  unfold hostOps1; after_results; rfl
theorem bias_at3 (c : Dev nD) : W3 m ρ c (Proc.devRef .tc main_v26) = shapeCast S1x256 (W2 m ρ c (Proc.devRef .tc main_arg5)) shapeCasts_S256_S1x256 := by
  show StableHlo.after hostOps1 (W2 m ρ c) (Proc.devRef .tc main_v26) = _
  unfold hostOps1; after_results; rfl

theorem feat_at4 (c : Dev nD) : W4 m ρ c (Proc.devRef .tc main_v27) = feat2 m c := by
  refine (W4_arr m ρ c 4).trans ((region1_out (V3 m ρ) c).trans ?_)
  show Cert.Gin.affineRelu (W3 m ρ c (Proc.devRef .tc main_v15)) (W3 m ρ c (Proc.devRef .tc main_v25)) (W3 m ρ c (Proc.devRef .tc main_arg4))
      (fun q => W3 m ρ c (Proc.devRef .tc main_v26) (ix2 (0 : Fin 1) q)) = _
  rw [agg_at3, x_at3, bias_at3, arg4_at3, feat_at2, src_at2, dst_at2, arg5_at2]
  unfold feat2
  exact congrArg _ (funext fun q => shapeCast_a_1a_apply _ _ 0 q)

/-! ## The third launch -/

theorem x_at5 (c : Dev nD) : W5 m ρ c (Proc.devRef .tc main_v27) = W4 m ρ c (Proc.devRef .tc main_v27) := by
  show StableHlo.after hostOps2 (W4 m ρ c) (Proc.devRef .tc main_v27) = _
  unfold hostOps2; after_results
theorem agg_at5 (c : Dev nD) : W5 m ρ c (Proc.devRef .tc main_v37)
    = aggOf256 (W4 m ρ c (Proc.devRef .tc main_v27)) (W4 m ρ c (Proc.devRef .tc main_v1)) (W4 m ρ c (Proc.devRef .tc main_v3)) := by
  show StableHlo.after hostOps2 (W4 m ρ c) (Proc.devRef .tc main_v37) = _
  unfold hostOps2; after_results; rfl
theorem bias_at5 (c : Dev nD) : W5 m ρ c (Proc.devRef .tc main_v38) = shapeCast S1x256 (W4 m ρ c (Proc.devRef .tc main_arg7)) shapeCasts_S256_S1x256 := by
  show StableHlo.after hostOps2 (W4 m ρ c) (Proc.devRef .tc main_v38) = _
  unfold hostOps2; after_results; rfl

theorem feat_at6 (c : Dev nD) : W6 m ρ c (Proc.devRef .tc main_v39) = feat3 m c := by
  refine (W6_arr m ρ c 4).trans ((region2_out (V5 m ρ) c).trans ?_)
  show Cert.Gin.affineRelu (W5 m ρ c (Proc.devRef .tc main_v27)) (W5 m ρ c (Proc.devRef .tc main_v37)) (W5 m ρ c (Proc.devRef .tc main_arg6))
      (fun q => W5 m ρ c (Proc.devRef .tc main_v38) (ix2 (0 : Fin 1) q)) = _
  rw [agg_at5, x_at5, bias_at5, arg6_at5, feat_at4, src_at4, dst_at4, arg7_at4]
  unfold feat3
  exact congrArg _ (funext fun q => shapeCast_a_1a_apply _ _ 0 q)

/-! ## The fourth launch: the result -/

theorem x_at7 (c : Dev nD) : W7 m ρ c (Proc.devRef .tc main_v39) = W6 m ρ c (Proc.devRef .tc main_v39) := by
  show StableHlo.after hostOps3 (W6 m ρ c) (Proc.devRef .tc main_v39) = _
  unfold hostOps3; after_results
theorem agg_at7 (c : Dev nD) : W7 m ρ c (Proc.devRef .tc main_v49)
    = aggOf256 (W6 m ρ c (Proc.devRef .tc main_v39)) (W6 m ρ c (Proc.devRef .tc main_v1)) (W6 m ρ c (Proc.devRef .tc main_v3)) := by
  show StableHlo.after hostOps3 (W6 m ρ c) (Proc.devRef .tc main_v49) = _
  unfold hostOps3; after_results; rfl
theorem bias_at7 (c : Dev nD) : W7 m ρ c (Proc.devRef .tc main_v50) = shapeCast S1x40 (W6 m ρ c (Proc.devRef .tc main_arg9)) shapeCasts_S40_S1x40 := by
  show StableHlo.after hostOps3 (W6 m ρ c) (Proc.devRef .tc main_v50) = _
  unfold hostOps3; after_results; rfl

theorem result_at8 (c : Dev nD) : W8 m ρ c (Proc.devRef .tc main_v51) = outOf m c := by
  refine (W8_arr m ρ c 4).trans ((region3_out (V7 m ρ) c).trans ?_)
  show Cert.Gin.affine (W7 m ρ c (Proc.devRef .tc main_v39)) (W7 m ρ c (Proc.devRef .tc main_v49)) (W7 m ρ c (Proc.devRef .tc main_arg8))
      (fun q => W7 m ρ c (Proc.devRef .tc main_v50) (ix2 (0 : Fin 1) q)) = _
  rw [agg_at7, x_at7, bias_at7, arg8_at7, feat_at6, src_at6, dst_at6, arg9_at6]
  unfold outOf
  exact congrArg _ (funext fun q => shapeCast_a_1a_apply _ _ 0 q)

/-- The network of the arguments as launched, its neighbour sums the host chain at the edge list's two id rows. -/
def netOf (c : Dev nD) : Cert.Gin.X 40 :=
  Cert.Gin.net (fun x => aggOf128 x (srcOf (m ((c : Thread nD τ).loc main_arg1))) (dstOf (m ((c : Thread nD τ).loc main_arg1)))) (fun h => aggOf256 h (srcOf (m ((c : Thread nD τ).loc main_arg1))) (dstOf (m ((c : Thread nD τ).loc main_arg1))))
    (m ((c : Thread nD τ).loc main_arg0))
    (m ((c : Thread nD τ).loc main_arg2)) (fun q => m ((c : Thread nD τ).loc main_arg3) (ix1 q))
    (m ((c : Thread nD τ).loc main_arg4)) (fun q => m ((c : Thread nD τ).loc main_arg5) (ix1 q))
    (m ((c : Thread nD τ).loc main_arg6)) (fun q => m ((c : Thread nD τ).loc main_arg7) (ix1 q))
    (m ((c : Thread nD τ).loc main_arg8)) (fun q => m ((c : Thread nD τ).loc main_arg9) (ix1 q))

/-- The result buffer ends at the network of the arguments. -/
theorem result_net (c : Dev nD) : W8 m ρ c (Proc.devRef .tc main_v51) = netOf m c :=
  (result_at8 m ρ c).trans rfl

end Cert.KernelIdeal.KValue

end
-- ==== Proof.RefNet.lean ====
/-
  The reference program computes the specification's network.

  Each layer of the reference is built from whole-array host operations. First the neighbour sums: the rows of the
  features named by the first row of the edge list (negative entries wrapped by the node count) are gathered, one per
  edge, and added into the rows named by the second row of the edge list, starting from the zero array. Then the layer
  proper: the features scaled by the literal 1.0 plus the neighbour sums, contracted with the weight matrix over the
  input channels, plus the bias broadcast down the 20000 rows, and, for the first three layers, the maximum with the
  literal 0.0.

  Over the extended reals every operation of the layer proper reads at a row `r` and a channel `q` as the plain
  expression `(∑ k, (one * x r k + agg r k) * W k q) + b q` (and its maximum with `zero`): the contraction is a sum over
  its one contracted axis, a broadcast reads its operand at the coordinates it keeps, and the pointwise operations are
  the extended reals' own. That is the specification's `affine` (`affineRelu`). The neighbour-sum chain is never
  opened: it is carried as one function `agg128` / `agg256` of the features and the edge list, the same host operations
  in the same order as the reference applies them, so the result is the specification's `net` over these two maps.
-/
import proofs.«164107_j38560216383777_1_alg».proof.Proof.Gen.ReferenceIdeal.Read
import proofs.«164107_j38560216383777_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The reference's neighbour sums on 128 channels, as one function of the features `x` and the edge list `ei`: the zero
    array, with the gathered row `x[ei[0, e]]` (a negative entry wrapped by 20000) added into row `ei[1, e]` for every
    edge `e`. The host operations are the reference's own, in its order; no proof opens them. -/
def agg128 (x : FVec Ideal S20000x128 .f32) (ei : Vec Ideal S2x640000 .i32) : FVec Ideal S20000x128 .f32 :=
  Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 (shapeCast _ (extractStridedSlice S1x640000 ![1, 0] ei slices_S2x640000_S1x640000_1_0) shapeCasts_S1x640000_S640000)) (Host.gather gather_S20000x128_S640000x1_S640000x128_1_0_n_n_0_1_1128 x (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 20000#32))) (shapeCast _ (extractStridedSlice S1x640000 ![0, 0] ei slices_S2x640000_S1x640000_0_0) shapeCasts_S1x640000_S640000))))

/-- The same neighbour sums on 256 channels. -/
def agg256 (h : FVec Ideal S20000x256 .f32) (ei : Vec Ideal S2x640000 .i32) : FVec Ideal S20000x256 .f32 :=
  Host.scatterAdd (F := Ideal) scatter_S20000x256_S640000x1_S640000x256_1_0_0_1 (broadcastInDim S20000x256 ![] bcast_S_S20000x256 (constant (F := Ideal) S_ .f32 0x00000000#32)) (broadcastInDim S640000x1 ![0] bcast_S640000_S640000x1_0 (shapeCast _ (extractStridedSlice S1x640000 ![1, 0] ei slices_S2x640000_S1x640000_1_0) shapeCasts_S1x640000_S640000)) (Host.gather gather_S20000x256_S640000x1_S640000x256_1_0_n_n_0_1_1256 h (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 20000#32))) (shapeCast _ (extractStridedSlice S1x640000 ![0, 0] ei slices_S2x640000_S1x640000_0_0) shapeCasts_S1x640000_S640000))))

/-- The host contraction of a `[20000, 128]` array with a `[128, 256]` matrix, read at row `r`, channel `q`:
    the plain sum over the 128 contracted channels. -/
theorem dot128x256_apply (y : FVec Ideal S20000x128 .f32) (W : FVec Ideal S128x256 .f32) (r : Fin 20000) (q : Fin 256) :
    Host.dotGeneral (F := Ideal) dot_S20000x128_S128x256_S20000x256_1_0_0_1_n_n none y W (ix2 r q)
      = ∑ k : Fin 128, y (ix2 r k) * W (ix2 k q) := by
  simp only [Host.dotGeneral]
  rw [Ideal.dotGeneral_apply, ← Equiv.sum_comp (ValueIdx.contrEquiv1 dot_S20000x128_S128x256_S20000x256_1_0_0_1_n_n 128 rfl rfl).symm]
  refine Finset.sum_congr rfl fun k _ => ?_
  have hk := ValueIdx.contrEquiv1_symm_val dot_S20000x128_S128x256_S20000x256_1_0_0_1_n_n 128 rfl rfl k
  have el : dot_S20000x128_S128x256_S20000x256_1_0_0_1_n_n.lhsIdx (ix2 r q) ((ValueIdx.contrEquiv1 dot_S20000x128_S128x256_S20000x256_1_0_0_1_n_n 128 rfl rfl).symm k) = ix2 r k :=
    funext fun a => Fin.ext (by
      match a with
      | ⟨0, _⟩ => exact Read.lhs_main_v17_0 _ _
      | ⟨1, _⟩ => exact (Read.lhs_main_v17_1 _ _).trans hk)
  have er : dot_S20000x128_S128x256_S20000x256_1_0_0_1_n_n.rhsIdx (ix2 r q) ((ValueIdx.contrEquiv1 dot_S20000x128_S128x256_S20000x256_1_0_0_1_n_n 128 rfl rfl).symm k) = ix2 k q :=
    funext fun a => Fin.ext (by
      match a with
      | ⟨0, _⟩ => exact (Read.rhs_main_v17_0 _ _).trans hk
      | ⟨1, _⟩ => exact Read.rhs_main_v17_1 _ _)
  rw [el, er]

/-- The host contraction of a `[20000, 256]` array with a `[256, 256]` matrix, read at row `r`, channel `q`:
    the plain sum over the 256 contracted channels. -/
theorem dot256x256_apply (y : FVec Ideal S20000x256 .f32) (W : FVec Ideal S256x256 .f32) (r : Fin 20000) (q : Fin 256) :
    Host.dotGeneral (F := Ideal) dot_S20000x256_S256x256_S20000x256_1_0_0_1_n_n none y W (ix2 r q)
      = ∑ k : Fin 256, y (ix2 r k) * W (ix2 k q) := by
  simp only [Host.dotGeneral]
  rw [Ideal.dotGeneral_apply, ← Equiv.sum_comp (ValueIdx.contrEquiv1 dot_S20000x256_S256x256_S20000x256_1_0_0_1_n_n 256 rfl rfl).symm]
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx (ix2 r q) ((ValueIdx.contrEquiv1 dot_S20000x256_S256x256_S20000x256_1_0_0_1_n_n 256 rfl rfl).symm k) = ix2 r k :=
    funext fun a => Fin.ext (by
      match a with
      | ⟨0, _⟩ => exact Read.lhs_main_v39_0 _ _
      | ⟨1, _⟩ => exact (Read.lhs_main_v39_1 _ _).trans hk)
  have er : dot_S20000x256_S256x256_S20000x256_1_0_0_1_n_n.rhsIdx (ix2 r q) ((ValueIdx.contrEquiv1 dot_S20000x256_S256x256_S20000x256_1_0_0_1_n_n 256 rfl rfl).symm k) = ix2 k q :=
    funext fun a => Fin.ext (by
      match a with
      | ⟨0, _⟩ => exact (Read.rhs_main_v39_0 _ _).trans hk
      | ⟨1, _⟩ => exact Read.rhs_main_v39_1 _ _)
  rw [el, er]

/-- The host contraction of a `[20000, 256]` array with a `[256, 40]` matrix, read at row `r`, channel `q`:
    the plain sum over the 256 contracted channels. -/
theorem dot256x40_apply (y : FVec Ideal S20000x256 .f32) (W : FVec Ideal S256x40 .f32) (r : Fin 20000) (q : Fin 40) :
    Host.dotGeneral (F := Ideal) dot_S20000x256_S256x40_S20000x40_1_0_0_1_n_n none y W (ix2 r q)
      = ∑ k : Fin 256, y (ix2 r k) * W (ix2 k q) := by
  simp only [Host.dotGeneral]
  rw [Ideal.dotGeneral_apply, ← Equiv.sum_comp (ValueIdx.contrEquiv1 dot_S20000x256_S256x40_S20000x40_1_0_0_1_n_n 256 rfl rfl).symm]
  refine Finset.sum_congr rfl fun k _ => ?_
  have hk := ValueIdx.contrEquiv1_symm_val dot_S20000x256_S256x40_S20000x40_1_0_0_1_n_n 256 rfl rfl k
  have el : dot_S20000x256_S256x40_S20000x40_1_0_0_1_n_n.lhsIdx (ix2 r q) ((ValueIdx.contrEquiv1 dot_S20000x256_S256x40_S20000x40_1_0_0_1_n_n 256 rfl rfl).symm k) = ix2 r k :=
    funext fun a => Fin.ext (by
      match a with
      | ⟨0, _⟩ => exact Read.lhs_main_v83_0 _ _
      | ⟨1, _⟩ => exact (Read.lhs_main_v83_1 _ _).trans hk)
  have er : dot_S20000x256_S256x40_S20000x40_1_0_0_1_n_n.rhsIdx (ix2 r q) ((ValueIdx.contrEquiv1 dot_S20000x256_S256x40_S20000x40_1_0_0_1_n_n 256 rfl rfl).symm k) = ix2 k q :=
    funext fun a => Fin.ext (by
      match a with
      | ⟨0, _⟩ => exact (Read.rhs_main_v83_0 _ _).trans hk
      | ⟨1, _⟩ => exact Read.rhs_main_v83_1 _ _)
  rw [el, er]

/-- A bias vector broadcast first to one row and then down the 20000 rows reads, at row `r` and channel `q`, its entry `q`. -/
theorem bias256_apply (b : FVec Ideal S256 .f32) (r : Fin 20000) (q : Fin 256) :
    broadcastInDim S20000x256 ![0, 1] bcast_S1x256_S20000x256_0_1 (broadcastInDim S1x256 ![1] bcast_S256_S1x256_1 b) (ix2 r q)
      = b (ix1 q) := by
  refine (broadcastInDim_apply _ bcast_S1x256_S20000x256_0_1 _ (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply _ bcast_S256_S1x256_1 b _ (ix1 q) (fun a => match a with
    | ⟨0, _⟩ => by show q.val = if (256 : Nat) = 1 then 0 else q.val; rw [if_neg (by decide)])

/-- A bias vector broadcast first to one row and then down the 20000 rows reads, at row `r` and channel `q`, its entry `q`. -/
theorem bias40_apply (b : FVec Ideal S40 .f32) (r : Fin 20000) (q : Fin 40) :
    broadcastInDim S20000x40 ![0, 1] bcast_S1x40_S20000x40_0_1 (broadcastInDim S1x40 ![1] bcast_S40_S1x40_1 b) (ix2 r q)
      = b (ix1 q) := by
  refine (broadcastInDim_apply _ bcast_S1x40_S20000x40_0_1 _ (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])).trans ?_
  exact broadcastInDim_apply _ bcast_S40_S1x40_1 b _ (ix1 q) (fun a => match a with
    | ⟨0, _⟩ => by show q.val = if (40 : Nat) = 1 then 0 else q.val; rw [if_neg (by decide)])

/-- A float literal broadcast over a `[20000, 128]` array reads the literal's value at every index. -/
theorem splat128_apply (w : BitVec FTy.f32.bits) (i : S20000x128.Idx) :
    broadcastInDim S20000x128 ![] bcast_S_S20000x128 (constant (F := Ideal) S_ .f32 w) i = Ideal.ofBits .f32 w :=
  broadcastInDim_apply _ bcast_S_S20000x128 _ i ix0 (fun a => a.elim0)

/-- A float literal broadcast over a `[20000, 256]` array reads the literal's value at every index. -/
theorem splat256_apply (w : BitVec FTy.f32.bits) (i : S20000x256.Idx) :
    broadcastInDim S20000x256 ![] bcast_S_S20000x256 (constant (F := Ideal) S_ .f32 w) i = Ideal.ofBits .f32 w :=
  broadcastInDim_apply _ bcast_S_S20000x256 _ i ix0 (fun a => a.elim0)

/-- The skip term scaled by the literal 1.0, plus the neighbour sum, at row `r` and channel `k`. -/
theorem skip128_apply (x agg : FVec Ideal S20000x128 .f32) (r : Fin 20000) (k : Fin 128) :
    (addf (mulf (broadcastInDim S20000x128 ![] bcast_S_S20000x128 (constant (F := Ideal) S_ .f32 0x3F800000#32)) x) agg) (ix2 r k)
      = Cert.Gin.one * x (ix2 r k) + agg (ix2 r k) := by
  rw [addf_apply, mulf_apply, splat128_apply]

/-- The skip term scaled by the literal 1.0, plus the neighbour sum, at row `r` and channel `k`. -/
theorem skip256_apply (x agg : FVec Ideal S20000x256 .f32) (r : Fin 20000) (k : Fin 256) :
    (addf (mulf (broadcastInDim S20000x256 ![] bcast_S_S20000x256 (constant (F := Ideal) S_ .f32 0x3F800000#32)) x) agg) (ix2 r k)
      = Cert.Gin.one * x (ix2 r k) + agg (ix2 r k) := by
  rw [addf_apply, mulf_apply, splat256_apply]

/-- The first layer of the reference, for ANY neighbour sums `agg`, is the specification's
    `affineRelu`: at row `r`, channel `q` the contraction is the sum over the 128 input channels, the bias reads its entry `q`,
    the two literals read their values, and the maximum is the extended reals'. -/
theorem layer128 (x agg : FVec Ideal S20000x128 .f32) (W : FVec Ideal S128x256 .f32) (b : FVec Ideal S256 .f32) :
    maximumf (addf (Host.dotGeneral (F := Ideal) dot_S20000x128_S128x256_S20000x256_1_0_0_1_n_n none (addf (mulf (broadcastInDim S20000x128 ![] bcast_S_S20000x128 (constant (F := Ideal) S_ .f32 0x3F800000#32)) x) agg) W) (broadcastInDim S20000x256 ![0, 1] bcast_S1x256_S20000x256_0_1 (broadcastInDim S1x256 ![1] bcast_S256_S1x256_1 b))) (broadcastInDim S20000x256 ![] bcast_S_S20000x256 (constant (F := Ideal) S_ .f32 0x00000000#32))
      = Cert.Gin.affineRelu x agg W (fun q => b (ValueIdx.ix1 q)) := by
  funext i
  obtain ⟨r, q, rfl⟩ : ∃ (r : Fin 20000) (q : Fin 256), i = ix2 r q := ⟨i 0, i 1, eq_ix2 i⟩
  rw [Cert.Gin.affineRelu_apply, maximumf_apply, addf_apply, dot128x256_apply, bias256_apply, splat256_apply]
  refine congrArg (fun s => max (s + b (ix1 q)) Cert.Gin.zero) (Finset.sum_congr rfl fun k _ => ?_)
  rw [skip128_apply]

/-- A hidden layer on 256 channels of the reference, for ANY neighbour sums `agg`, is the specification's
    `affineRelu`: at row `r`, channel `q` the contraction is the sum over the 256 input channels, the bias reads its entry `q`,
    the two literals read their values, and the maximum is the extended reals'. -/
theorem layer256 (x agg : FVec Ideal S20000x256 .f32) (W : FVec Ideal S256x256 .f32) (b : FVec Ideal S256 .f32) :
    maximumf (addf (Host.dotGeneral (F := Ideal) dot_S20000x256_S256x256_S20000x256_1_0_0_1_n_n none (addf (mulf (broadcastInDim S20000x256 ![] bcast_S_S20000x256 (constant (F := Ideal) S_ .f32 0x3F800000#32)) x) agg) W) (broadcastInDim S20000x256 ![0, 1] bcast_S1x256_S20000x256_0_1 (broadcastInDim S1x256 ![1] bcast_S256_S1x256_1 b))) (broadcastInDim S20000x256 ![] bcast_S_S20000x256 (constant (F := Ideal) S_ .f32 0x00000000#32))
      = Cert.Gin.affineRelu x agg W (fun q => b (ValueIdx.ix1 q)) := by
  funext i
  obtain ⟨r, q, rfl⟩ : ∃ (r : Fin 20000) (q : Fin 256), i = ix2 r q := ⟨i 0, i 1, eq_ix2 i⟩
  rw [Cert.Gin.affineRelu_apply, maximumf_apply, addf_apply, dot256x256_apply, bias256_apply, splat256_apply]
  refine congrArg (fun s => max (s + b (ix1 q)) Cert.Gin.zero) (Finset.sum_congr rfl fun k _ => ?_)
  rw [skip256_apply]

/-- The last layer (256 channels into 40, no maximum) of the reference, for ANY neighbour sums `agg`, is the specification's
    `affine`: at row `r`, channel `q` the contraction is the sum over the 256 input channels, the bias reads its entry `q`,
    and the literal 1.0 reads its value. -/
theorem layer40 (x agg : FVec Ideal S20000x256 .f32) (W : FVec Ideal S256x40 .f32) (b : FVec Ideal S40 .f32) :
    addf (Host.dotGeneral (F := Ideal) dot_S20000x256_S256x40_S20000x40_1_0_0_1_n_n none (addf (mulf (broadcastInDim S20000x256 ![] bcast_S_S20000x256 (constant (F := Ideal) S_ .f32 0x3F800000#32)) x) agg) W) (broadcastInDim S20000x40 ![0, 1] bcast_S1x40_S20000x40_0_1 (broadcastInDim S1x40 ![1] bcast_S40_S1x40_1 b))
      = Cert.Gin.affine x agg W (fun q => b (ValueIdx.ix1 q)) := by
  funext i
  obtain ⟨r, q, rfl⟩ : ∃ (r : Fin 20000) (q : Fin 40), i = ix2 r q := ⟨i 0, i 1, eq_ix2 i⟩
  rw [Cert.Gin.affine_apply, addf_apply, dot256x40_apply, bias40_apply]
  refine congrArg (fun s => s + b (ix1 q)) (Finset.sum_congr rfl fun k _ => ?_)
  rw [skip256_apply]

/-- The first layer as the reference spells it: the 128-channel features, their neighbour sums, a `[128, 256]` weight
    matrix, a bias, and the positive part. -/
def stage128 (x : FVec Ideal S20000x128 .f32) (ei : Vec Ideal S2x640000 .i32) (W : FVec Ideal S128x256 .f32)
    (b : FVec Ideal S256 .f32) : FVec Ideal S20000x256 .f32 :=
  maximumf (addf (Host.dotGeneral (F := Ideal) dot_S20000x128_S128x256_S20000x256_1_0_0_1_n_n none (addf (mulf (broadcastInDim S20000x128 ![] bcast_S_S20000x128 (constant (F := Ideal) S_ .f32 0x3F800000#32)) x) (agg128 x ei)) W) (broadcastInDim S20000x256 ![0, 1] bcast_S1x256_S20000x256_0_1 (broadcastInDim S1x256 ![1] bcast_S256_S1x256_1 b))) (broadcastInDim S20000x256 ![] bcast_S_S20000x256 (constant (F := Ideal) S_ .f32 0x00000000#32))

/-- A hidden layer on 256 channels as the reference spells it. -/
def stage256 (x : FVec Ideal S20000x256 .f32) (ei : Vec Ideal S2x640000 .i32) (W : FVec Ideal S256x256 .f32)
    (b : FVec Ideal S256 .f32) : FVec Ideal S20000x256 .f32 :=
  maximumf (addf (Host.dotGeneral (F := Ideal) dot_S20000x256_S256x256_S20000x256_1_0_0_1_n_n none (addf (mulf (broadcastInDim S20000x256 ![] bcast_S_S20000x256 (constant (F := Ideal) S_ .f32 0x3F800000#32)) x) (agg256 x ei)) W) (broadcastInDim S20000x256 ![0, 1] bcast_S1x256_S20000x256_0_1 (broadcastInDim S1x256 ![1] bcast_S256_S1x256_1 b))) (broadcastInDim S20000x256 ![] bcast_S_S20000x256 (constant (F := Ideal) S_ .f32 0x00000000#32))

/-- The last layer as the reference spells it: 256 channels into 40, no positive part. -/
def stage40 (x : FVec Ideal S20000x256 .f32) (ei : Vec Ideal S2x640000 .i32) (W : FVec Ideal S256x40 .f32)
    (b : FVec Ideal S40 .f32) : FVec Ideal S20000x40 .f32 :=
  addf (Host.dotGeneral (F := Ideal) dot_S20000x256_S256x40_S20000x40_1_0_0_1_n_n none (addf (mulf (broadcastInDim S20000x256 ![] bcast_S_S20000x256 (constant (F := Ideal) S_ .f32 0x3F800000#32)) x) (agg256 x ei)) W) (broadcastInDim S20000x40 ![0, 1] bcast_S1x40_S20000x40_0_1 (broadcastInDim S1x40 ![1] bcast_S40_S1x40_1 b))

/-- Each stage is the specification's layer over the reference's neighbour sums of its own input. -/
theorem stage128_eq (x : FVec Ideal S20000x128 .f32) (ei : Vec Ideal S2x640000 .i32) (W : FVec Ideal S128x256 .f32)
    (b : FVec Ideal S256 .f32) :
    stage128 x ei W b = Cert.Gin.affineRelu x (agg128 x ei) W (fun q => b (ValueIdx.ix1 q)) :=
  layer128 x (agg128 x ei) W b

theorem stage256_eq (x : FVec Ideal S20000x256 .f32) (ei : Vec Ideal S2x640000 .i32) (W : FVec Ideal S256x256 .f32)
    (b : FVec Ideal S256 .f32) :
    stage256 x ei W b = Cert.Gin.affineRelu x (agg256 x ei) W (fun q => b (ValueIdx.ix1 q)) :=
  layer256 x (agg256 x ei) W b

theorem stage40_eq (x : FVec Ideal S20000x256 .f32) (ei : Vec Ideal S2x640000 .i32) (W : FVec Ideal S256x40 .f32)
    (b : FVec Ideal S40 .f32) :
    stage40 x ei W b = Cert.Gin.affine x (agg256 x ei) W (fun q => b (ValueIdx.ix1 q)) :=
  layer40 x (agg256 x ei) W b

/-- The reference's result is the four stages composed: the same term, folded. -/
theorem res_eq_stages (m : (ℓ : Loc nD τ sig) → Buf (Elt Ideal) ℓ) (c : Dev nD) :
    Cert.ReferenceIdeal.Value.res_main_v86 (F := Ideal) m c
      = stage40 (stage256 (stage256 (stage128 (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg1)) (m ((c.tc : Thread nD τ).loc main_arg4)) (m ((c.tc : Thread nD τ).loc main_arg5)))
          (m ((c.tc : Thread nD τ).loc main_arg1)) (m ((c.tc : Thread nD τ).loc main_arg6)) (m ((c.tc : Thread nD τ).loc main_arg7)))
        (m ((c.tc : Thread nD τ).loc main_arg1)) (m ((c.tc : Thread nD τ).loc main_arg8)) (m ((c.tc : Thread nD τ).loc main_arg9)) := by
  unfold Cert.ReferenceIdeal.Value.res_main_v86; rfl

/-- The reference's result is the network of the specification, over the reference's own neighbour-sum maps. -/
theorem result_eq (m : (ℓ : Loc nD τ sig) → Buf (Elt Ideal) ℓ) (c : Dev nD) :
    Cert.ReferenceIdeal.Value.res_main_v86 (F := Ideal) m c
      = Cert.Gin.net (fun x => agg128 x (m ((c.tc : Thread nD τ).loc main_arg1))) (fun h => agg256 h (m ((c.tc : Thread nD τ).loc main_arg1)))
          (m ((c.tc : Thread nD τ).loc main_arg0))
          (m ((c.tc : Thread nD τ).loc main_arg2)) (fun q => m ((c.tc : Thread nD τ).loc main_arg3) (ValueIdx.ix1 q))
          (m ((c.tc : Thread nD τ).loc main_arg4)) (fun q => m ((c.tc : Thread nD τ).loc main_arg5) (ValueIdx.ix1 q))
          (m ((c.tc : Thread nD τ).loc main_arg6)) (fun q => m ((c.tc : Thread nD τ).loc main_arg7) (ValueIdx.ix1 q))
          (m ((c.tc : Thread nD τ).loc main_arg8)) (fun q => m ((c.tc : Thread nD τ).loc main_arg9) (ValueIdx.ix1 q)) := by
  rw [res_eq_stages, stage40_eq, stage256_eq, stage256_eq, stage128_eq]
  rfl

end Cert.ReferenceIdeal.RefValue

end
-- ==== Proof.Bridge.lean ====
/-
  The two programs' neighbour sums are one function.

  Both programs compute the neighbour sums of a layer's features by the same host operations in the same order: the
  source and destination rows of the edge list are sliced out and flattened, a negative source id is wrapped by the
  node count, the features' rows at the source ids are gathered, and they are added into a zero array at the rows the
  destination ids name. Each program's text names its own copies of the operations' dimension records (which axes a
  gather collapses, which axis a scatter indexes, …) and its own proofs of their side conditions; the records have the
  same fields and the shapes are the same literals, so the two chains are the same function of the features and the
  edge list, by unfolding the definitions. Nothing is evaluated at an index.
-/
import proofs.«164107_j38560216383777_1_alg».proof.Proof.RefNet
import proofs.«164107_j38560216383777_1_alg».proof.Proof.KAgg

noncomputable section

namespace Cert.Proof.Bridge

open Idealize.ShloMosaic

/-- The two programs' gather records on 128 channels have the same fields. -/
theorem gather128_eq :
    Cert.ReferenceIdeal.gather_S20000x128_S640000x1_S640000x128_1_0_n_n_0_1_1128
      = Cert.KernelIdeal.gather_S20000x128_S640000x1_S640000x128_1_0_n_n_0_1_1128 := rfl

/-- The two programs' scatter records on 128 channels have the same fields. -/
theorem scatter128_eq :
    Cert.ReferenceIdeal.scatter_S20000x128_S640000x1_S640000x128_1_0_0_1
      = Cert.KernelIdeal.scatter_S20000x128_S640000x1_S640000x128_1_0_0_1 := rfl

/-- The two programs' gather records on 256 channels have the same fields. -/
theorem gather256_eq :
    Cert.ReferenceIdeal.gather_S20000x256_S640000x1_S640000x256_1_0_n_n_0_1_1256
      = Cert.KernelIdeal.gather_S20000x256_S640000x1_S640000x256_1_0_n_n_0_1_1256 := rfl

/-- The two programs' scatter records on 256 channels have the same fields. -/
theorem scatter256_eq :
    Cert.ReferenceIdeal.scatter_S20000x256_S640000x1_S640000x256_1_0_0_1
      = Cert.KernelIdeal.scatter_S20000x256_S640000x1_S640000x256_1_0_0_1 := rfl

/-- The reference's neighbour sums on 128 channels are the kernel program's, of the same features and the edge list's
    two rows. -/
theorem agg128_eq (x : FVec Ideal Cert.ReferenceIdeal.S20000x128 .f32) (ei : Vec Ideal Cert.ReferenceIdeal.S2x640000 .i32) :
    Cert.ReferenceIdeal.RefValue.agg128 x ei
      = Cert.KernelIdeal.KValue.aggOf128 x (Cert.KernelIdeal.KValue.srcOf ei) (Cert.KernelIdeal.KValue.dstOf ei) := by
  unfold Cert.ReferenceIdeal.RefValue.agg128 Cert.KernelIdeal.KValue.aggOf128 Cert.KernelIdeal.KValue.srcOf
    Cert.KernelIdeal.KValue.dstOf
  rfl

/-- The same on 256 channels. -/
theorem agg256_eq (h : FVec Ideal Cert.ReferenceIdeal.S20000x256 .f32) (ei : Vec Ideal Cert.ReferenceIdeal.S2x640000 .i32) :
    Cert.ReferenceIdeal.RefValue.agg256 h ei
      = Cert.KernelIdeal.KValue.aggOf256 h (Cert.KernelIdeal.KValue.srcOf ei) (Cert.KernelIdeal.KValue.dstOf ei) := by
  unfold Cert.ReferenceIdeal.RefValue.agg256 Cert.KernelIdeal.KValue.aggOf256 Cert.KernelIdeal.KValue.srcOf
    Cert.KernelIdeal.KValue.dstOf
  rfl

end Cert.Proof.Bridge

end
-- ==== Proof.lean ====
/-
  The certificate: the kernel program and the reference compute the same four-layer graph network.

  Both programs take node features `x` (20000 nodes, 128 channels), an edge list, and four weight matrices with
  their biases. A layer sums, for every node, the current features of its in-neighbours (gathered at the edges'
  sources, added at their destinations), adds the node's own features scaled by the float 1.0, multiplies by the
  weights, adds the bias, and, except in the last layer, takes the positive part. The kernel program runs each
  layer's matrix product block by block (2000 rows at a time) in a kernel launch, with the neighbour sums computed
  by host operations before the launch; the reference runs everything as host operations on whole arrays. On the
  extended reals the block-wise product is the whole product row by row, a change of float format is the identity,
  and the neighbour sums are the same host chain applied to equal arguments: both results are `Cert.Gin.net` of the
  arguments. No law used here needs finiteness, so the precondition is never opened.

  The frames: the two kernel programs' frames are the generated frame certificates (modules Proof/KernelFrame and
  Proof/KernelIdealFrame); the reference's is its generated run with the result dropped. `preserves` is trivial: the idealization rewrote nothing.
-/
import proofs.«164107_j38560216383777_1_alg».proof.Defs
import proofs.«164107_j38560216383777_1_alg».proof.Proof.Gen.Kernel
import proofs.«164107_j38560216383777_1_alg».proof.Proof.Gen.KernelIdeal
import proofs.«164107_j38560216383777_1_alg».proof.Proof.Gen.ReferenceIdeal
import proofs.«164107_j38560216383777_1_alg».proof.Proof.Gen.Pre_finite_inputs
import proofs.«164107_j38560216383777_1_alg».proof.Proof.KernelFrame
import proofs.«164107_j38560216383777_1_alg».proof.Proof.KernelIdealFrame
import proofs.«164107_j38560216383777_1_alg».proof.Proof.KRun
import proofs.«164107_j38560216383777_1_alg».proof.Proof.KFeat
import proofs.«164107_j38560216383777_1_alg».proof.Proof.RefNet
import proofs.«164107_j38560216383777_1_alg».proof.Proof.Bridge

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.GenP.frame m ρ

theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- The two idealized programs, run from memories that agree on the arguments, end with the same result: the network
    of the arguments. The kernel's result buffer ends at it (the boundary contents read back), the reference's at its
    composed term, which is the same network with the reference's spelling of the neighbour sums; those are one
    function of equal arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.netOf m c, ?_, ?_⟩
  · exact (θ_run Cert.KernelIdeal.defs _ _).mono
      (fun r h c => ⟨(h c).1.trans (Cert.KernelIdeal.KValue.result_net m ρ c), (h c).2⟩)
      (Cert.KernelIdeal.KValue.run_boundary m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.RefValue.result_eq, h0, h1, h2, h3, h4, h5, h6, h7, h8, h9]
    unfold Cert.KernelIdeal.KValue.netOf
    rw [show (fun x => Cert.ReferenceIdeal.RefValue.agg128 x (m ((c.tc : Thread Cert.KernelIdeal.nD Cert.KernelIdeal.τ).loc Cert.KernelIdeal.main_arg1)))
          = (fun x => Cert.KernelIdeal.KValue.aggOf128 x
              (Cert.KernelIdeal.KValue.srcOf (m ((c.tc : Thread Cert.KernelIdeal.nD Cert.KernelIdeal.τ).loc Cert.KernelIdeal.main_arg1)))
              (Cert.KernelIdeal.KValue.dstOf (m ((c.tc : Thread Cert.KernelIdeal.nD Cert.KernelIdeal.τ).loc Cert.KernelIdeal.main_arg1))))
          from funext fun x => Cert.Proof.Bridge.agg128_eq x _,
        show (fun h => Cert.ReferenceIdeal.RefValue.agg256 h (m ((c.tc : Thread Cert.KernelIdeal.nD Cert.KernelIdeal.τ).loc Cert.KernelIdeal.main_arg1)))
          = (fun h => Cert.KernelIdeal.KValue.aggOf256 h
              (Cert.KernelIdeal.KValue.srcOf (m ((c.tc : Thread Cert.KernelIdeal.nD Cert.KernelIdeal.τ).loc Cert.KernelIdeal.main_arg1)))
              (Cert.KernelIdeal.KValue.dstOf (m ((c.tc : Thread Cert.KernelIdeal.nD Cert.KernelIdeal.τ).loc Cert.KernelIdeal.main_arg1))))
          from funext fun h => Cert.Proof.Bridge.agg256_eq h _]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
